-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x64 .f32) (main_arg13 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S400x10000 : Shape := ⟨2, ![400, 10000]⟩
abbrev S400x128 : Shape := ⟨2, ![400, 128]⟩
abbrev S10000x64 : Shape := ⟨2, ![10000, 64]⟩
abbrev S400x64 : Shape := ⟨2, ![400, 64]⟩
abbrev S1x64 : Shape := ⟨2, ![1, 64]⟩

abbrev nBuf : Space → Nat
  | .hbm => 28
  | .vmem => 46
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S10000x128, .bf16⟩
  | .hbm, ⟨15, _⟩ => ⟨S1x128, .f32⟩
  | .hbm, ⟨16, _⟩ => ⟨S10000x128, .bf16⟩
  | .hbm, ⟨17, _⟩ => ⟨S10000x10000, .bf16⟩
  | .hbm, ⟨18, _⟩ => ⟨S1x128, .f32⟩
  | .hbm, ⟨19, _⟩ => ⟨S10000x128, .bf16⟩
  | .hbm, ⟨20, _⟩ => ⟨S1x128, .f32⟩
  | .hbm, ⟨21, _⟩ => ⟨S10000x128, .bf16⟩
  | .hbm, ⟨22, _⟩ => ⟨S1x128, .f32⟩
  | .hbm, ⟨23, _⟩ => ⟨S10000x128, .bf16⟩
  | .hbm, ⟨24, _⟩ => ⟨S1x128, .f32⟩
  | .hbm, ⟨25, _⟩ => ⟨S10000x64, .bf16⟩
  | .hbm, ⟨26, _⟩ => ⟨S1x64, .f32⟩
  | .hbm, ⟨27, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S128x128, .f32⟩
  | .local _ .vmem, ⟨8, _⟩ => ⟨S400x128, .bf16⟩
  | .local _ .vmem, ⟨9, _⟩ => ⟨S400x128, .bf16⟩
  | .local _ .vmem, ⟨10, _⟩ => ⟨S400x10000, .bf16⟩
  | .local _ .vmem, ⟨11, _⟩ => ⟨S400x10000, .bf16⟩
  | .local _ .vmem, ⟨12, _⟩ => ⟨S400x10000, .bf16⟩
  | .local _ .vmem, ⟨13, _⟩ => ⟨S400x10000, .bf16⟩
  | .local _ .vmem, ⟨14, _⟩ => ⟨S10000x128, .bf16⟩
  | .local _ .vmem, ⟨15, _⟩ => ⟨S1x128, .f32⟩
  | .local _ .vmem, ⟨16, _⟩ => ⟨S128x128, .f32⟩
  | .local _ .vmem, ⟨17, _⟩ => ⟨S400x128, .bf16⟩
  | .local _ .vmem, ⟨18, _⟩ => ⟨S400x128, .bf16⟩
  | .local _ .vmem, ⟨19, _⟩ => ⟨S400x10000, .bf16⟩
  | .local _ .vmem, ⟨20, _⟩ => ⟨S400x10000, .bf16⟩
  | .local _ .vmem, ⟨21, _⟩ => ⟨S10000x128, .bf16⟩
  | .local _ .vmem, ⟨22, _⟩ => ⟨S1x128, .f32⟩
  | .local _ .vmem, ⟨23, _⟩ => ⟨S128x128, .f32⟩
  | .local _ .vmem, ⟨24, _⟩ => ⟨S400x128, .bf16⟩
  | .local _ .vmem, ⟨25, _⟩ => ⟨S400x128, .bf16⟩
  | .local _ .vmem, ⟨26, _⟩ => ⟨S400x10000, .bf16⟩
  | .local _ .vmem, ⟨27, _⟩ => ⟨S400x10000, .bf16⟩
  | .local _ .vmem, ⟨28, _⟩ => ⟨S10000x128, .bf16⟩
  | .local _ .vmem, ⟨29, _⟩ => ⟨S1x128, .f32⟩
  | .local _ .vmem, ⟨30, _⟩ => ⟨S128x128, .f32⟩
  | .local _ .vmem, ⟨31, _⟩ => ⟨S400x128, .bf16⟩
  | .local _ .vmem, ⟨32, _⟩ => ⟨S400x128, .bf16⟩
  | .local _ .vmem, ⟨33, _⟩ => ⟨S400x10000, .bf16⟩
  | .local _ .vmem, ⟨34, _⟩ => ⟨S400x10000, .bf16⟩
  | .local _ .vmem, ⟨35, _⟩ => ⟨S10000x128, .bf16⟩
  | .local _ .vmem, ⟨36, _⟩ => ⟨S1x128, .f32⟩
  | .local _ .vmem, ⟨37, _⟩ => ⟨S128x64, .f32⟩
  | .local _ .vmem, ⟨38, _⟩ => ⟨S400x64, .bf16⟩
  | .local _ .vmem, ⟨39, _⟩ => ⟨S400x64, .bf16⟩
  | .local _ .vmem, ⟨40, _⟩ => ⟨S400x10000, .bf16⟩
  | .local _ .vmem, ⟨41, _⟩ => ⟨S400x10000, .bf16⟩
  | .local _ .vmem, ⟨42, _⟩ => ⟨S10000x64, .bf16⟩
  | .local _ .vmem, ⟨43, _⟩ => ⟨S1x64, .f32⟩
  | .local _ .vmem, ⟨44, _⟩ => ⟨S400x64, .f32⟩
  | .local _ .vmem, ⟨45, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S400x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S400x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S400x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S400x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x10000_S400x10000 : S400x10000.ShapeCasts S400x10000
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .bf16 = 32 ∨ (Rect.block (s := S10000x128) S400x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x128.size a ≤ S10000x128.size a
  hwx3_4 : ∀ i : grid3.Coords, EltTy.bits .bf16 = 32 ∨ (Rect.block (s := S10000x128) S400x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x128.size a ≤ S10000x128.size a
  hwx4_4 : ∀ i : grid4.Coords, EltTy.bits .bf16 = 32 ∨ (Rect.block (s := S10000x128) S400x128.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .bf16 = 32 ∨ (Rect.block (s := S10000x128) S10000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S400x64.size a ≤ S10000x64.size a
  hwx5_4 : ∀ i : grid5.Coords, EltTy.bits .bf16 = 32 ∨ (Rect.block (s := S10000x64) S400x64.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .bf16 = 32 ∨ (Rect.block (s := S10000x10000) S400x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S10000x64.size a
  hwx6_1 : ∀ i : grid6.Coords, EltTy.bits .bf16 = 32 ∨ (Rect.block (s := S10000x64) S10000x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S400x64.size a ≤ S10000x64.size a
  hwx6_3 : ∀ i : grid6.Coords, EltTy.bits .f32 = 32 ∨ (Rect.block (s := S10000x64) S400x64.size (cc6_transform_3 i) (hinb6_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S400x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v2_1) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v8) S400x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v2_1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v9) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v10) S400x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v2_1) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v10) S10000x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v11) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v12) S400x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S10000x64, .f32⟩
  | .hbm, ⟨55, _⟩ => ⟨S10000x64, .f32⟩
  | .hbm, ⟨56, _⟩ => ⟨S1x64, .f32⟩
  | .hbm, ⟨57, _⟩ => ⟨S10000x64, .f32⟩
  | .hbm, ⟨58, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_cst : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call3_cst : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call4_cst : Ref sig .tc := ⟨.hbm, 51, rfl⟩
abbrev main_call4_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.KernelDots.lean ====
/-
  The kernels' matrix products as textbook sums.

  Each product in the kernels contracts the left operand's second axis with the right operand's first and starts
  from a zero accumulator, so its entry (r, j) is the sum over k of left (r, k) * right (k, j). For each of the five
  shapes of product the kernels use, the dimension record's operand indices are read off coordinate by coordinate:
  a free axis keeps the output's coordinate, the contracted axis takes the summation index.
-/
import proofs.«141864_g56126632624284_cont_9to1_m_1356_5_alg».proof.Proof.Gen.KernelIdeal
import proofs.«141864_g56126632624284_cont_9to1_m_1356_5_alg».proof.Proof.LibDense

noncomputable section

namespace Cert.KernelIdeal.Dots

open Idealize.ShloMosaic Cert.KernelIdeal Cert.KernelIdeal.Gen Cert.Dense

/-- The first support: [10000, 128] features times [128, 128] weights. -/
theorem mm_xw {φ₁ φ₂ : FTy} (l : FVec Ideal S10000x128 φ₁) (r : FVec Ideal S128x128 φ₂) (j : S10000x128.Idx) :
    matmul dot_S10000x128_S128x128_S10000x128_1_0_0_1_n_n none l r (constant S10000x128 .f32 0x00000000#32) j = mm l r j :=
  matmul_zero_eq dot_S10000x128_S128x128_S10000x128_1_0_0_1_n_n rfl rfl
    (fun i q => by
      unfold DotDims.lhsIdx
      rw [dif_neg (show ¬(0 : Fin S10000x128.rank) ∈ dot_S10000x128_S128x128_S10000x128_1_0_0_1_n_n.lhsBatch by decide),
        dif_pos (show (0 : Fin S10000x128.rank) ∈ dot_S10000x128_S128x128_S10000x128_1_0_0_1_n_n.lhsNonContracting by decide)]
      rfl)
    (fun i q => dot_S10000x128_S128x128_S10000x128_1_0_0_1_n_n.lhsIdx_val_of_single rfl i q)
    (fun i q => dot_S10000x128_S128x128_S10000x128_1_0_0_1_n_n.rhsIdx_val_of_single rfl i q)
    (fun i q => by
      unfold DotDims.rhsIdx
      rw [dif_neg (show ¬(1 : Fin S128x128.rank) ∈ dot_S10000x128_S128x128_S10000x128_1_0_0_1_n_n.rhsBatch by decide),
        dif_pos (show (1 : Fin S128x128.rank) ∈ dot_S10000x128_S128x128_S10000x128_1_0_0_1_n_n.rhsNonContracting by decide)]
      rfl)
    none l r j

/-- A block of 400 rows of the adjacency matrix times a [10000, 128] support. -/
theorem mm_as {φ₁ φ₂ : FTy} (l : FVec Ideal S400x10000 φ₁) (r : FVec Ideal S10000x128 φ₂) (j : S400x128.Idx) :
    matmul dot_S400x10000_S10000x128_S400x128_1_0_0_1_n_n none l r (constant S400x128 .f32 0x00000000#32) j = mm l r j :=
  matmul_zero_eq dot_S400x10000_S10000x128_S400x128_1_0_0_1_n_n rfl rfl
    (fun i q => by
      unfold DotDims.lhsIdx
      rw [dif_neg (show ¬(0 : Fin S400x10000.rank) ∈ dot_S400x10000_S10000x128_S400x128_1_0_0_1_n_n.lhsBatch by decide),
        dif_pos (show (0 : Fin S400x10000.rank) ∈ dot_S400x10000_S10000x128_S400x128_1_0_0_1_n_n.lhsNonContracting by decide)]
      rfl)
    (fun i q => dot_S400x10000_S10000x128_S400x128_1_0_0_1_n_n.lhsIdx_val_of_single rfl i q)
    (fun i q => dot_S400x10000_S10000x128_S400x128_1_0_0_1_n_n.rhsIdx_val_of_single rfl i q)
    (fun i q => by
      unfold DotDims.rhsIdx
      rw [dif_neg (show ¬(1 : Fin S10000x128.rank) ∈ dot_S400x10000_S10000x128_S400x128_1_0_0_1_n_n.rhsBatch by decide),
        dif_pos (show (1 : Fin S10000x128.rank) ∈ dot_S400x10000_S10000x128_S400x128_1_0_0_1_n_n.rhsNonContracting by decide)]
      rfl)
    none l r j

/-- A block of 400 hidden rows times [128, 128] weights. -/
theorem mm_hw {φ₁ φ₂ : FTy} (l : FVec Ideal S400x128 φ₁) (r : FVec Ideal S128x128 φ₂) (j : S400x128.Idx) :
    matmul dot_S400x128_S128x128_S400x128_1_0_0_1_n_n none l r (constant S400x128 .f32 0x00000000#32) j = mm l r j :=
  matmul_zero_eq dot_S400x128_S128x128_S400x128_1_0_0_1_n_n rfl rfl
    (fun i q => by
      unfold DotDims.lhsIdx
      rw [dif_neg (show ¬(0 : Fin S400x128.rank) ∈ dot_S400x128_S128x128_S400x128_1_0_0_1_n_n.lhsBatch by decide),
        dif_pos (show (0 : Fin S400x128.rank) ∈ dot_S400x128_S128x128_S400x128_1_0_0_1_n_n.lhsNonContracting by decide)]
      rfl)
    (fun i q => dot_S400x128_S128x128_S400x128_1_0_0_1_n_n.lhsIdx_val_of_single rfl i q)
    (fun i q => dot_S400x128_S128x128_S400x128_1_0_0_1_n_n.rhsIdx_val_of_single rfl i q)
    (fun i q => by
      unfold DotDims.rhsIdx
      rw [dif_neg (show ¬(1 : Fin S128x128.rank) ∈ dot_S400x128_S128x128_S400x128_1_0_0_1_n_n.rhsBatch by decide),
        dif_pos (show (1 : Fin S128x128.rank) ∈ dot_S400x128_S128x128_S400x128_1_0_0_1_n_n.rhsNonContracting by decide)]
      rfl)
    none l r j

/-- A block of 400 hidden rows times the last layer's [128, 64] weights. -/
theorem mm_hw6 {φ₁ φ₂ : FTy} (l : FVec Ideal S400x128 φ₁) (r : FVec Ideal S128x64 φ₂) (j : S400x64.Idx) :
    matmul dot_S400x128_S128x64_S400x64_1_0_0_1_n_n none l r (constant S400x64 .f32 0x00000000#32) j = mm l r j :=
  matmul_zero_eq dot_S400x128_S128x64_S400x64_1_0_0_1_n_n rfl rfl
    (fun i q => by
      unfold DotDims.lhsIdx
      rw [dif_neg (show ¬(0 : Fin S400x128.rank) ∈ dot_S400x128_S128x64_S400x64_1_0_0_1_n_n.lhsBatch by decide),
        dif_pos (show (0 : Fin S400x128.rank) ∈ dot_S400x128_S128x64_S400x64_1_0_0_1_n_n.lhsNonContracting by decide)]
      rfl)
    (fun i q => dot_S400x128_S128x64_S400x64_1_0_0_1_n_n.lhsIdx_val_of_single rfl i q)
    (fun i q => dot_S400x128_S128x64_S400x64_1_0_0_1_n_n.rhsIdx_val_of_single rfl i q)
    (fun i q => by
      unfold DotDims.rhsIdx
      rw [dif_neg (show ¬(1 : Fin S128x64.rank) ∈ dot_S400x128_S128x64_S400x64_1_0_0_1_n_n.rhsBatch by decide),
        dif_pos (show (1 : Fin S128x64.rank) ∈ dot_S400x128_S128x64_S400x64_1_0_0_1_n_n.rhsNonContracting by decide)]
      rfl)
    none l r j

/-- A block of 400 rows of the adjacency matrix times the last [10000, 64] support. -/
theorem mm_as6 {φ₁ φ₂ : FTy} (l : FVec Ideal S400x10000 φ₁) (r : FVec Ideal S10000x64 φ₂) (j : S400x64.Idx) :
    matmul dot_S400x10000_S10000x64_S400x64_1_0_0_1_n_n none l r (constant S400x64 .f32 0x00000000#32) j = mm l r j :=
  matmul_zero_eq dot_S400x10000_S10000x64_S400x64_1_0_0_1_n_n rfl rfl
    (fun i q => by
      unfold DotDims.lhsIdx
      rw [dif_neg (show ¬(0 : Fin S400x10000.rank) ∈ dot_S400x10000_S10000x64_S400x64_1_0_0_1_n_n.lhsBatch by decide),
        dif_pos (show (0 : Fin S400x10000.rank) ∈ dot_S400x10000_S10000x64_S400x64_1_0_0_1_n_n.lhsNonContracting by decide)]
      rfl)
    (fun i q => dot_S400x10000_S10000x64_S400x64_1_0_0_1_n_n.lhsIdx_val_of_single rfl i q)
    (fun i q => dot_S400x10000_S10000x64_S400x64_1_0_0_1_n_n.rhsIdx_val_of_single rfl i q)
    (fun i q => by
      unfold DotDims.rhsIdx
      rw [dif_neg (show ¬(1 : Fin S10000x64.rank) ∈ dot_S400x10000_S10000x64_S400x64_1_0_0_1_n_n.rhsBatch by decide),
        dif_pos (show (1 : Fin S10000x64.rank) ∈ dot_S400x10000_S10000x64_S400x64_1_0_0_1_n_n.rhsNonContracting by decide)]
      rfl)
    none l r j

end Cert.KernelIdeal.Dots

end
-- ==== Proof.GcnSpec.lean ====
/-
  A six-layer graph convolution network as one function of its arrays, entry by entry, on the extended reals.

  With A the [N, N] adjacency matrix, a layer takes a support S (an [N, C] matrix), a bias row B and the next
  layer's weights W: it forms the convolution A · S + B, clips it below at zero, and multiplies by W, which is the
  next layer's support. The network starts from the support X · W1 and ends with a convolution that is not clipped.
  Every product is the textbook sum over the contracted axis, in the order of that axis; no law of arithmetic
  beyond the definitions is used, so nothing here asks the entries to be finite.

  A row block of a layer's result depends on the same rows of A only: `next_block` and `lin_block` say so for
  a block given as a separate matrix whose rows are rows of A.
-/
import proofs.«141864_g56126632624284_cont_9to1_m_1356_5_alg».proof.Proof.LibDense

noncomputable section

namespace Cert.Gcn

open Idealize.ShloMosaic Idealize.ShloMosaic.ValueIdx Cert.Dense

/-- An [R, C] matrix of extended reals. -/
abbrev Mat (R C : Nat) : Type := (⟨2, ![R, C]⟩ : Shape).Idx → EReal

/-- The hidden activation: the convolution A · S + B clipped below at zero, entry by entry. -/
def act {N C : Nat} (A : Mat N N) (S : Mat N C) (B : Mat 1 C) : Mat N C :=
  fun i => max (lin A S B i) z0

/-- One layer: the hidden activation times the next layer's weights, which is the next layer's support. -/
def next {N C C' : Nat} (A : Mat N N) (S : Mat N C) (B : Mat 1 C) (W : Mat C C') : Mat N C' :=
  mm (act A S B) W

/-- The network: the first support X · W1, five clipped layers, and a last convolution left unclipped. -/
def net {N F H C : Nat} (X : Mat N F) (A : Mat N N)
    (W1 : Mat F H) (B1 : Mat 1 H) (W2 : Mat H H) (B2 : Mat 1 H) (W3 : Mat H H) (B3 : Mat 1 H)
    (W4 : Mat H H) (B4 : Mat 1 H) (W5 : Mat H H) (B5 : Mat 1 H) (W6 : Mat H C) (B6 : Mat 1 C) : Mat N C :=
  lin A (next A (next A (next A (next A (next A (mm X W1) B1 W2) B2 W3) B3 W4) B4 W5) B5 W6) B6

/-- A convolution computed on a block of rows of A is the convolution's entry at the row the block's row is. -/
theorem lin_block {R N C : Nat} {a : Mat R N} {A : Mat N N} (S : Mat N C) (B : Mat 1 C)
    (j : (⟨2, ![R, C]⟩ : Shape).Idx) (i : (⟨2, ![N, C]⟩ : Shape).Idx) (h1 : j 1 = i 1)
    (ha : ∀ l : Fin N, a (ix2 (j 0) l) = A (ix2 (i 0) l)) :
    lin a S B j = lin A S B i :=
  lin_congr j i h1 ha rfl rfl

/-- A layer computed on a block of rows of A is the layer's entry at the row the block's row is. -/
theorem next_block {R N C C' : Nat} {a : Mat R N} {A : Mat N N} (S : Mat N C) (B : Mat 1 C) (W : Mat C C')
    (j : (⟨2, ![R, C']⟩ : Shape).Idx) (i : (⟨2, ![N, C']⟩ : Shape).Idx) (h1 : j 1 = i 1)
    (ha : ∀ l : Fin N, a (ix2 (j 0) l) = A (ix2 (i 0) l)) :
    mm (fun i' => max (lin a S B i') z0) W j = next A S B W i := by
  unfold next
  refine mm_congr j i (fun k => ?_) (fun k => by rw [h1])
  exact congrArg (fun z => max z z0)
    (lin_congr (X := a) (X' := A) (W := S) (W' := S) (B := B) (B' := B) (ix2 (j 0) k) (ix2 (i 0) k) rfl (fun l => ha l) rfl rfl)

/-- The same with the support, the bias row and the weights handed over as blocks that are the whole arrays. -/
theorem next_of_blocks {R N C C' : Nat} {a : Mat R N} {A : Mat N N} {s S : Mat N C} {b B : Mat 1 C} {w W : Mat C C'}
    (j : (⟨2, ![R, C']⟩ : Shape).Idx) (i : (⟨2, ![N, C']⟩ : Shape).Idx) (h1 : j 1 = i 1)
    (ha : ∀ l : Fin N, a (ix2 (j 0) l) = A (ix2 (i 0) l)) (hs : s = S) (hb : b = B) (hw : w = W) :
    mm (fun i' => max (lin a s b i') z0) w j = next A S B W i := by
  subst hs hb hw
  exact next_block s b w j i h1 ha

/-- The last convolution on a block of rows, the support and the bias row handed over as whole-array blocks. -/
theorem lin_of_blocks {R N C : Nat} {a : Mat R N} {A : Mat N N} {s S : Mat N C} {b B : Mat 1 C}
    (j : (⟨2, ![R, C]⟩ : Shape).Idx) (i : (⟨2, ![N, C]⟩ : Shape).Idx) (h1 : j 1 = i 1)
    (ha : ∀ l : Fin N, a (ix2 (j 0) l) = A (ix2 (i 0) l)) (hs : s = S) (hb : b = B) :
    lin a s b j = lin A S B i := by
  subst hs hb
  exact lin_block s b j i h1 ha

end Cert.Gcn

end
-- ==== Proof.KernelPay.lean ====
/-
  What each kernel body stores, entry by entry, on the extended reals.

  A change of float format is the identity, a reshape to the same shape is the identity, and a product into a zero
  accumulator is the textbook sum. So the first kernel stores the product of its two operands; a layer kernel, given a
  block `a` of rows of the adjacency matrix, a support `s`, a bias row `b` and weights `w`, stores
  (max (a · s + b) 0) · w; the last kernel stores a · s + b.
-/
import proofs.«141864_g56126632624284_cont_9to1_m_1356_5_alg».proof.Proof.Gen.KernelIdeal.Skeleton
import proofs.«141864_g56126632624284_cont_9to1_m_1356_5_alg».proof.Proof.KernelDots
import proofs.«141864_g56126632624284_cont_9to1_m_1356_5_alg».proof.Proof.GcnSpec
import Idealize.ShloMosaic.Lib.ValueLayout

noncomputable section

namespace Cert.KernelIdeal.Pay

open Idealize.ShloMosaic Idealize.ShloMosaic.ValueIdx Cert.KernelIdeal Cert.KernelIdeal.Gen Cert.Dense Cert.Gcn

/-- The first support's kernel stores the product of the features and the first weights. -/
theorem support (x : Vec Ideal S10000x128 .f32) (w : Vec Ideal S128x128 .f32) (j : S10000x128.Idx) :
    k0_pay1 (F := Ideal) x w j = mm x w j := by
  unfold k0_pay1
  exact Dots.mm_xw (φ₁ := .f32) (φ₂ := .f32) x w j

/-- The adjacency block re-stored in the narrower format is the block itself. -/
theorem recast (a : Vec Ideal S400x10000 .f32) : k1_pay1 (F := Ideal) a = a := rfl

/-- The clipped convolution of a 400-row block against a [10000, 128] support, at row p and column k. -/
theorem hidden {φ₁ φ₂ : FTy} (a : FVec Ideal S400x10000 φ₁) (s : FVec Ideal S10000x128 φ₂) (b : FVec Ideal S1x128 .f32)
    (p : Fin 400) (k : Fin 128) :
    maximumf (addf (matmul dot_S400x10000_S10000x128_S400x128_1_0_0_1_n_n none a s (constant S400x128 .f32 0x00000000#32))
        (broadcastTo S400x128 b broadcasts_S1x128_S400x128))
      (broadcast S400x128 (Scalar.ofBits .f32 0x00000000#32)) (ix2 p k)
      = max (lin a s b (ix2 p k)) z0 :=
  congrArg₂ max
    (congrArg₂ (· + ·) (Dots.mm_as a s (ix2 p k)) (broadcastTo_1b_ab_apply b broadcasts_S1x128_S400x128 p k)) rfl

/-- The first layer's kernel: from the block in its original format. -/
theorem layer1 (a : Vec Ideal S400x10000 .f32) (s : Vec Ideal S10000x128 .bf16) (b : Vec Ideal S1x128 .f32)
    (w : Vec Ideal S128x128 .f32) (j : S400x128.Idx) :
    k1_pay2 (F := Ideal) a s b w j = mm (fun i' => max (lin a s b i') z0) w j := by
  unfold k1_pay2
  simp only [shapeCast_self, recast]
  refine (Dots.mm_hw (φ₁ := .f32) (φ₂ := .f32) _ w j).trans (mm_congr j j (fun k => ?_) (fun _ => rfl))
  exact hidden (φ₁ := .f32) (φ₂ := .bf16) a s b (j 0) k

/-- A middle layer's kernel (pipeline 2). -/
theorem layer2 (a : Vec Ideal S400x10000 .bf16) (s : Vec Ideal S10000x128 .bf16) (b : Vec Ideal S1x128 .f32)
    (w : Vec Ideal S128x128 .f32) (j : S400x128.Idx) :
    k2_pay1 (F := Ideal) a s b w j = mm (fun i' => max (lin a s b i') z0) w j := by
  unfold k2_pay1
  simp only [shapeCast_self]
  refine (Dots.mm_hw (φ₁ := .f32) (φ₂ := .f32) _ w j).trans (mm_congr j j (fun k => ?_) (fun _ => rfl))
  exact hidden (φ₁ := .bf16) (φ₂ := .bf16) a s b (j 0) k

/-- A middle layer's kernel (pipeline 3). -/
theorem layer3 (a : Vec Ideal S400x10000 .bf16) (s : Vec Ideal S10000x128 .bf16) (b : Vec Ideal S1x128 .f32)
    (w : Vec Ideal S128x128 .f32) (j : S400x128.Idx) :
    k3_pay1 (F := Ideal) a s b w j = mm (fun i' => max (lin a s b i') z0) w j := by
  unfold k3_pay1
  simp only [shapeCast_self]
  refine (Dots.mm_hw (φ₁ := .f32) (φ₂ := .f32) _ w j).trans (mm_congr j j (fun k => ?_) (fun _ => rfl))
  exact hidden (φ₁ := .bf16) (φ₂ := .bf16) a s b (j 0) k

/-- A middle layer's kernel (pipeline 4). -/
theorem layer4 (a : Vec Ideal S400x10000 .bf16) (s : Vec Ideal S10000x128 .bf16) (b : Vec Ideal S1x128 .f32)
    (w : Vec Ideal S128x128 .f32) (j : S400x128.Idx) :
    k4_pay1 (F := Ideal) a s b w j = mm (fun i' => max (lin a s b i') z0) w j := by
  unfold k4_pay1
  simp only [shapeCast_self]
  refine (Dots.mm_hw (φ₁ := .f32) (φ₂ := .f32) _ w j).trans (mm_congr j j (fun k => ?_) (fun _ => rfl))
  exact hidden (φ₁ := .bf16) (φ₂ := .bf16) a s b (j 0) k

/-- The fifth layer's kernel: the weights that follow are the last layer's [128, 64]. -/
theorem layer5 (a : Vec Ideal S400x10000 .bf16) (s : Vec Ideal S10000x128 .bf16) (b : Vec Ideal S1x128 .f32)
    (w : Vec Ideal S128x64 .f32) (j : S400x64.Idx) :
    k5_pay1 (F := Ideal) a s b w j = mm (fun i' => max (lin a s b i') z0) w j := by
  unfold k5_pay1
  simp only [shapeCast_self]
  refine (Dots.mm_hw6 (φ₁ := .f32) (φ₂ := .f32) _ w j).trans (mm_congr j j (fun k => ?_) (fun _ => rfl))
  exact hidden (φ₁ := .bf16) (φ₂ := .bf16) a s b (j 0) k

/-- The last kernel stores the convolution itself. -/
theorem last (a : Vec Ideal S400x10000 .bf16) (s : Vec Ideal S10000x64 .bf16) (b : Vec Ideal S1x64 .f32)
    (j : S400x64.Idx) :
    k6_pay1 (F := Ideal) a s b j = lin a s b j := by
  obtain ⟨p, q, rfl⟩ : ∃ (p : Fin 400) (q : Fin 64), j = ix2 p q := ⟨j 0, j 1, eq_ix2 j⟩
  unfold k6_pay1
  simp only [shapeCast_self]
  exact congrArg₂ (· + ·) (Dots.mm_as6 (φ₁ := .bf16) (φ₂ := .bf16) a s (ix2 p q)) (broadcastTo_1b_ab_apply b broadcasts_S1x64_S400x64 p q)

end Cert.KernelIdeal.Pay

end
-- ==== Proof.Region0.lean ====
/-
  The first support's region, for any contents `V` of the buffers at its entry.

  The kernel has no grid: its one point takes the whole feature matrix X and the whole first weights W1 and writes
  back the whole [10000, 128] product X · W1, entry (r, j) the sum over k of X (r, k) * W1 (k, j).
-/
import proofs.«141864_g56126632624284_cont_9to1_m_1356_5_alg».proof.Proof.Gen.KernelIdeal.Frame
import proofs.«141864_g56126632624284_cont_9to1_m_1356_5_alg».proof.Proof.KernelPay

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen Cert.Dense Cert.Gcn
open Idealize.ShloMosaic.Pipeline (Dat)

-- the buffer contents when the region is entered: every statement here holds for any of them
variable (V : (c : Dev nD) → (b : Ref sig .tc) → Buf (Elt Ideal) ((c : Thread nD τ).loc b))

theorem hz : (![0, 0] : Fin 2 → Nat) = fun _ => 0 := funext fun a => by fin_cases a <;> rfl

/-- Every window of the one point sits at block 0. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the point writes back is the product of the two arrays as the region found them. -/
theorem flushed2 (c : Dev nD) (t : Fin cfg0.N) :
    (dat0 V c).flushed 2 t = ((cfg0.win 2).blk t).view.read (Elt Ideal)
      (mm (R := 10000) (K := 128) (C := 128) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  have e := idx t
  funext j
  show k0_pay1 (F := Ideal) (iblk0 V c 0 t) (iblk0 V c 1 t) j
    = mm (R := 10000) (K := 128) (C := 128) (V c main_arg0) (V c main_arg2) (((cfg0.win 2).blk t).view.emb j)
  refine (Pay.support _ _ j).trans (mm_congr j _ (fun k => ?_) (fun k => ?_))
  · show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the array lies in the point's block iff each coordinate lies in the block's range. -/
theorem mem2 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The one block is the whole array. -/
theorem cover2 (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have e := idx (⟨0, by decide⟩ : Fin cfg0.N)
  refine ⟨⟨0, by decide⟩, flush0_2 _, ?_⟩
  rw [mem2]
  intro a
  match a with
  | ⟨0, _⟩ => show win0_2.index _ (0 : Fin 2) * 10000 ≤ (i 0).val ∧ (i 0).val < win0_2.index _ (0 : Fin 2) * 10000 + 10000; omega
  | ⟨1, _⟩ => show win0_2.index _ (1 : Fin 2) * 128 ≤ (i 1).val ∧ (i 1).val < win0_2.index _ (1 : Fin 2) * 128 + 128; omega

/-- After the region the first support holds X · W1 of the arrays as the region found them. -/
theorem support_out (c : Dev nD) :
    (dat0 V c).arrAt 2 cfg0.N = mm (R := 10000) (K := 128) (C := 128) (V c main_arg0) (V c main_arg2) :=
  (dat0 V c).arrAt_eq_of_cover 2 _ (fun t _ => flushed2 V c t) cover2

end Cert.KernelIdeal.Reg0

end
-- ==== Proof.Region1.lean ====
/-
  The first layer's region, for any contents `V` of the buffers at its entry.

  The grid has 25 points; point t takes rows 400 t … 400 t + 399 of the adjacency matrix and the whole of the
  support, the bias row and the next weights. It writes back the same rows of two arrays: the adjacency matrix in the
  narrower format, which on the extended reals is those rows unchanged, and the next support, whose row r is
  (max (A · S + B) 0) · W at row r — a function of row r of A alone. The 25 row blocks tile both arrays, so after
  the region the copy holds A and the next support holds the layer's function of the four arrays.
-/
import proofs.«141864_g56126632624284_cont_9to1_m_1356_5_alg».proof.Proof.Gen.KernelIdeal.Frame
import proofs.«141864_g56126632624284_cont_9to1_m_1356_5_alg».proof.Proof.KernelPay

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen Cert.Dense Cert.Gcn
open Idealize.ShloMosaic.Pipeline (Dat)

-- the buffer contents when the region is entered: every statement here holds for any of them
variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the adjacency block and both outputs follow the point, the support, the
    bias row and the weights stay at block 0. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The support's block at any point is the whole support. -/
theorem blk_s (c : Dev nD) (t : Fin cfg1.N) : (iblk1 V c 1 t : S10000x128.Idx → EReal) = V c main_v0 := by
  have e := idx t
  funext y
  show V c main_v0 (((cfg1.win 1).blk t).view.emb y) = V c main_v0 y
  refine congrArg (V c main_v0) (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The bias row's block at any point is the whole row. -/
theorem blk_b (c : Dev nD) (t : Fin cfg1.N) : (iblk1 V c 2 t : S1x128.Idx → EReal) = V c main_v1 := by
  have e := idx t
  funext y
  show V c main_v1 (((cfg1.win 2).blk t).view.emb y) = V c main_v1 y
  refine congrArg (V c main_v1) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The weights' block at any point is the whole matrix. -/
theorem blk_w (c : Dev nD) (t : Fin cfg1.N) : (iblk1 V c 3 t : S128x128.Idx → EReal) = V c main_arg4 := by
  have e := idx t
  funext y
  show V c main_arg4 (((cfg1.win 3).blk t).view.emb y) = V c main_arg4 y
  refine congrArg (V c main_arg4) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Row (j 0) of point t's adjacency block is the row of the adjacency matrix that row (j 0) of point t's output block is. -/
theorem blk_a (c : Dev nD) (t : Fin cfg1.N) (j : S400x128.Idx) (l : Fin 10000) :
    (iblk1 V c 0 t : S400x10000.Idx → EReal) (ix2 (j 0) l)
      = V c main_arg1 (ix2 ((((cfg1.win 4).blk t).view.emb j) 0) l) := by
  have e := idx t
  show V c main_arg1 (((cfg1.win 0).blk t).view.emb (ix2 (j 0) l)) = _
  refine congrArg (V c main_arg1) (funext fun a => Fin.ext ?_)
  match a with
  | ⟨0, _⟩ => show win1_0.index t (0 : Fin 2) * 400 + 1 * (j 0).val = win1_4.index t (0 : Fin 2) * 400 + 1 * (j 0).val; omega
  | ⟨1, _⟩ => show win1_0.index t (1 : Fin 2) * 10000 + 1 * l.val = l.val; omega

/-- What point t writes back to the next support is block t of the layer's function of the four arrays. -/
theorem flushed4 (c : Dev nD) (t : Fin cfg1.N) :
    (dat1 V c).flushed 4 t = ((cfg1.win 4).blk t).view.read (Elt Ideal)
      (next (N := 10000) (C := 128) (C' := 128) (V c main_arg1) (V c main_v0) (V c main_v1) (V c main_arg4)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S1x128) hz, View.ld_unit_zero (S := S128x128) hz]
  have e := idx t
  funext j
  show k1_pay2 (F := Ideal) (iblk1 V c 0 t) (iblk1 V c 1 t) (iblk1 V c 2 t) (iblk1 V c 3 t) j
    = next (N := 10000) (C := 128) (C' := 128) (V c main_arg1) (V c main_v0) (V c main_v1) (V c main_arg4)
        (((cfg1.win 4).blk t).view.emb j)
  refine (Pay.layer1 _ _ _ _ j).trans ?_
  refine next_of_blocks j _ (Fin.ext ?_) (fun l => blk_a V c t j l) (blk_s V c t) (blk_b V c t) (blk_w V c t)
  show (j 1).val = win1_4.index t (1 : Fin 2) * 128 + 1 * (j 1).val
  omega

/-- What point t writes back to the adjacency copy is block t of the adjacency matrix. -/
theorem flushed5 (c : Dev nD) (t : Fin cfg1.N) :
    (dat1 V c).flushed 5 t = ((cfg1.win 5).blk t).view.read (Elt Ideal) (V c main_arg1) := by
  show (cfg1.win 5).cut (grid1.coords t) ((dat1 V c).after 5 t) = _
  rw [after1_5]
  unfold out1_5
  rw [View.canon_unit_zero hz]
  simp only [View.ld_unit_zero (S := S400x10000) hz]
  have e := idx t
  funext j
  show V c main_arg1 (((cfg1.win 0).blk t).view.emb j) = V c main_arg1 (((cfg1.win 5).blk t).view.emb j)
  refine congrArg (V c main_arg1) (funext fun a => Fin.ext ?_)
  match a with
  | ⟨0, _⟩ => show win1_0.index t (0 : Fin 2) * 400 + 1 * (j 0).val = win1_5.index t (0 : Fin 2) * 400 + 1 * (j 0).val; omega
  | ⟨1, _⟩ => show win1_0.index t (1 : Fin 2) * 10000 + 1 * (j 1).val = win1_5.index t (1 : Fin 2) * 10000 + 1 * (j 1).val; omega

/-- An index of the array lies in point t's block of window 4 iff each coordinate lies in the block's range. -/
theorem mem4 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v2_0).slice (win1_4.rect t)).set ↔ _
  rw [View.set_slice_whole, Rect.mem_set_unit]
  exact Iff.rfl

/-- Row r lies in the block of point r / 400: the 25 blocks of 400 rows tile the array. -/
theorem cover4 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, by show (i 0).val / 400 < 25; omega⟩, rfl⟩
  have e := idx t
  refine ⟨t, flush1_4 t, ?_⟩
  rw [mem4]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- An index of the array lies in point t's block of window 5 iff each coordinate lies in the block's range. -/
theorem mem5 (t : Fin cfg1.N) (i : S10000x10000.Idx) :
    i ∈ ((cfg1.win 5).blk t).view.set ↔ ∀ a : Fin 2, win1_5.index t a * S400x10000.size a ≤ (i a).val ∧ (i a).val < win1_5.index t a * S400x10000.size a + S400x10000.size a := by
  show i ∈ ((View.whole main_v2_1).slice (win1_5.rect t)).set ↔ _
  rw [View.set_slice_whole, Rect.mem_set_unit]
  exact Iff.rfl

/-- Row r lies in the block of point r / 400: the 25 blocks of 400 rows tile the array. -/
theorem cover5 (i : S10000x10000.Idx) :
    ∃ t : Fin cfg1.N, (cfg1.win 5).flush t = true ∧ i ∈ ((cfg1.win 5).blk t).view.set := by
  have hi0 : (i 0).val < 10000 := (i 0).isLt
  have hi1 : (i 1).val < 10000 := (i 1).isLt
  obtain ⟨t, ht⟩ : ∃ t : Fin cfg1.N, t.val = (i 0).val / 400 :=
    ⟨⟨(i 0).val / 400, by show (i 0).val / 400 < 25; omega⟩, rfl⟩
  have e := idx t
  refine ⟨t, flush1_5 t, ?_⟩
  rw [mem5]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 10000 ≤ (i 1).val ∧ (i 1).val < win1_5.index t (1 : Fin 2) * 10000 + 10000; omega

/-- After the region the next support holds the layer's function of the arrays as the region found them. -/
theorem support_out (c : Dev nD) :
    (dat1 V c).arrAt 4 cfg1.N
      = next (N := 10000) (C := 128) (C' := 128) (V c main_arg1) (V c main_v0) (V c main_v1) (V c main_arg4) :=
  (dat1 V c).arrAt_eq_of_cover 4 _ (fun t _ => flushed4 V c t) cover4

/-- After the region the adjacency copy holds the adjacency matrix as the region found it. -/
theorem copy_out (c : Dev nD) : (dat1 V c).arrAt 5 cfg1.N = V c main_arg1 :=
  (dat1 V c).arrAt_eq_of_cover 5 _ (fun t _ => flushed5 V c t) cover5

end Cert.KernelIdeal.Reg1

end
-- ==== Proof.Region2.lean ====
/-
  Layer 2's region, for any contents `V` of the buffers at its entry.

  The grid has 25 points; point t takes rows 400 t … 400 t + 399 of the adjacency copy and the whole of the support,
  the bias row and the next weights, and writes back the same rows of the next support: row r is
  (max (A · S + B) 0) · W at row r, a function of row r of A alone. The 25 row blocks tile the array, so after the
  region the next support holds the layer's function of the four arrays.
-/
import proofs.«141864_g56126632624284_cont_9to1_m_1356_5_alg».proof.Proof.Gen.KernelIdeal.Frame
import proofs.«141864_g56126632624284_cont_9to1_m_1356_5_alg».proof.Proof.KernelPay

set_option maxRecDepth 16384

noncomputable section

namespace Cert.KernelIdeal.Reg2

open Idealize.ShloMosaic Idealize.ShloMosaic.TcCoe Idealize.ShloMosaic.ValueIdx Idealize.SL.Sem
open Cert.KernelIdeal Cert.KernelIdeal.Gen Cert.Dense Cert.Gcn
open Idealize.ShloMosaic.Pipeline (Dat)

-- the buffer contents when the region is entered: every statement here holds for any of them
variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the adjacency block and the output follow the point, the support, the
    bias row and the weights stay at block 0. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The support's block at any point is the whole support. -/
theorem blk_s (c : Dev nD) (t : Fin cfg2.N) : (iblk2 V c 1 t : S10000x128.Idx → EReal) = V c main_v2_0 := by
  have e := idx t
  funext y
  show V c main_v2_0 (((cfg2.win 1).blk t).view.emb y) = V c main_v2_0 y
  refine congrArg (V c main_v2_0) (funext fun a => Fin.ext ?_)
  match a with
  | ⟨0, _⟩ => show win2_1.index t (0 : Fin 2) * 10000 + 1 * (y 0).val = (y 0).val; omega
  | ⟨1, _⟩ => show win2_1.index t (1 : Fin 2) * 128 + 1 * (y 1).val = (y 1).val; omega

/-- The bias row's block at any point is the whole row. -/
theorem blk_b (c : Dev nD) (t : Fin cfg2.N) : (iblk2 V c 2 t : S1x128.Idx → EReal) = V c main_v3 := by
  have e := idx t
  funext y
  show V c main_v3 (((cfg2.win 2).blk t).view.emb y) = V c main_v3 y
  refine congrArg (V c main_v3) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The weights' block at any point is the whole matrix. -/
theorem blk_w (c : Dev nD) (t : Fin cfg2.N) : (iblk2 V c 3 t : S128x128.Idx → EReal) = V c main_arg6 := by
  have e := idx t
  funext y
  show V c main_arg6 (((cfg2.win 3).blk t).view.emb y) = V c main_arg6 y
  refine congrArg (V c main_arg6) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Row (j 0) of point t's adjacency block is the row of the adjacency copy that row (j 0) of point t's output block is. -/
theorem blk_a (c : Dev nD) (t : Fin cfg2.N) (j : S400x128.Idx) (l : Fin 10000) :
    (iblk2 V c 0 t : S400x10000.Idx → EReal) (ix2 (j 0) l)
      = V c main_v2_1 (ix2 ((((cfg2.win 4).blk t).view.emb j) 0) l) := by
  have e := idx t
  show V c main_v2_1 (((cfg2.win 0).blk t).view.emb (ix2 (j 0) l)) = _
  refine congrArg (V c main_v2_1) (funext fun a => Fin.ext ?_)
  match a with
  | ⟨0, _⟩ => show win2_0.index t (0 : Fin 2) * 400 + 1 * (j 0).val = win2_4.index t (0 : Fin 2) * 400 + 1 * (j 0).val; omega
  | ⟨1, _⟩ => show win2_0.index t (1 : Fin 2) * 10000 + 1 * l.val = l.val; omega

/-- What point t writes back to the next support is block t of the layer's function of the four arrays. -/
theorem flushed4 (c : Dev nD) (t : Fin cfg2.N) :
    (dat2 V c).flushed 4 t = ((cfg2.win 4).blk t).view.read (Elt Ideal)
      (next (N := 10000) (C := 128) (C' := 128) (V c main_v2_1) (V c main_v2_0) (V c main_v3) (V c main_arg6)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x128) hz,
    View.ld_unit_zero (S := S1x128) hz, View.ld_unit_zero (S := S128x128) hz]
  have e := idx t
  funext j
  show k2_pay1 (F := Ideal) (iblk2 V c 0 t) (iblk2 V c 1 t) (iblk2 V c 2 t) (iblk2 V c 3 t) j
    = next (N := 10000) (C := 128) (C' := 128) (V c main_v2_1) (V c main_v2_0) (V c main_v3) (V c main_arg6)
        (((cfg2.win 4).blk t).view.emb j)
  refine (Pay.layer2 _ _ _ _ j).trans ?_
  refine next_of_blocks j _ (Fin.ext ?_) (fun l => blk_a V c t j l) (blk_s V c t) (blk_b V c t) (blk_w V c t)
  show (j 1).val = win2_4.index t (1 : Fin 2) * 128 + 1 * (j 1).val
  omega

/-- An index of the array lies in point t's block of window 4 iff each coordinate lies in the block's range. -/
theorem mem4 (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_v4).slice (win2_4.rect t)).set ↔ _
  rw [View.set_slice_whole, Rect.mem_set_unit]
  exact Iff.rfl

/-- Row r lies in the block of point r / 400: the 25 blocks of 400 rows tile the array. -/
theorem cover4 (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  obtain ⟨t, ht⟩ : ∃ t : Fin cfg2.N, t.val = (i 0).val / 400 :=
    ⟨⟨(i 0).val / 400, by show (i 0).val / 400 < 25; omega⟩, rfl⟩
  have e := idx t
  refine ⟨t, flush2_4 t, ?_⟩
  rw [mem4]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 128 ≤ (i 1).val ∧ (i 1).val < win2_4.index t (1 : Fin 2) * 128 + 128; omega

/-- After the region the next support holds the layer's function of the arrays as the region found them. -/
theorem support_out (c : Dev nD) :
    (dat2 V c).arrAt 4 cfg2.N
      = next (N := 10000) (C := 128) (C' := 128) (V c main_v2_1) (V c main_v2_0) (V c main_v3) (V c main_arg6) :=
  (dat2 V c).arrAt_eq_of_cover 4 _ (fun t _ => flushed4 V c t) cover4

end Cert.KernelIdeal.Reg2

end
-- ==== Proof.Region3.lean ====
/-
  Layer 3's region, for any contents `V` of the buffers at its entry.

  The grid has 25 points; point t takes rows 400 t … 400 t + 399 of the adjacency copy and the whole of the support,
  the bias row and the next weights, and writes back the same rows of the next support: row r is
  (max (A · S + B) 0) · W at row r, a function of row r of A alone. The 25 row blocks tile the array, so after the
  region the next support holds the layer's function of the four arrays.
-/
import proofs.«141864_g56126632624284_cont_9to1_m_1356_5_alg».proof.Proof.Gen.KernelIdeal.Frame
import proofs.«141864_g56126632624284_cont_9to1_m_1356_5_alg».proof.Proof.KernelPay

set_option maxRecDepth 16384

noncomputable section

namespace Cert.KernelIdeal.Reg3

open Idealize.ShloMosaic Idealize.ShloMosaic.TcCoe Idealize.ShloMosaic.ValueIdx Idealize.SL.Sem
open Cert.KernelIdeal Cert.KernelIdeal.Gen Cert.Dense Cert.Gcn
open Idealize.ShloMosaic.Pipeline (Dat)

-- the buffer contents when the region is entered: every statement here holds for any of them
variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the adjacency block and the output follow the point, the support, the
    bias row and the weights stay at block 0. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The support's block at any point is the whole support. -/
theorem blk_s (c : Dev nD) (t : Fin cfg3.N) : (iblk3 V c 1 t : S10000x128.Idx → EReal) = V c main_v4 := by
  have e := idx t
  funext y
  show V c main_v4 (((cfg3.win 1).blk t).view.emb y) = V c main_v4 y
  refine congrArg (V c main_v4) (funext fun a => Fin.ext ?_)
  match a with
  | ⟨0, _⟩ => show win3_1.index t (0 : Fin 2) * 10000 + 1 * (y 0).val = (y 0).val; omega
  | ⟨1, _⟩ => show win3_1.index t (1 : Fin 2) * 128 + 1 * (y 1).val = (y 1).val; omega

/-- The bias row's block at any point is the whole row. -/
theorem blk_b (c : Dev nD) (t : Fin cfg3.N) : (iblk3 V c 2 t : S1x128.Idx → EReal) = V c main_v5 := by
  have e := idx t
  funext y
  show V c main_v5 (((cfg3.win 2).blk t).view.emb y) = V c main_v5 y
  refine congrArg (V c main_v5) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The weights' block at any point is the whole matrix. -/
theorem blk_w (c : Dev nD) (t : Fin cfg3.N) : (iblk3 V c 3 t : S128x128.Idx → EReal) = V c main_arg8 := by
  have e := idx t
  funext y
  show V c main_arg8 (((cfg3.win 3).blk t).view.emb y) = V c main_arg8 y
  refine congrArg (V c main_arg8) (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- Row (j 0) of point t's adjacency block is the row of the adjacency copy that row (j 0) of point t's output block is. -/
theorem blk_a (c : Dev nD) (t : Fin cfg3.N) (j : S400x128.Idx) (l : Fin 10000) :
    (iblk3 V c 0 t : S400x10000.Idx → EReal) (ix2 (j 0) l)
      = V c main_v2_1 (ix2 ((((cfg3.win 4).blk t).view.emb j) 0) l) := by
  have e := idx t
  show V c main_v2_1 (((cfg3.win 0).blk t).view.emb (ix2 (j 0) l)) = _
  refine congrArg (V c main_v2_1) (funext fun a => Fin.ext ?_)
  match a with
  | ⟨0, _⟩ => show win3_0.index t (0 : Fin 2) * 400 + 1 * (j 0).val = win3_4.index t (0 : Fin 2) * 400 + 1 * (j 0).val; omega
  | ⟨1, _⟩ => show win3_0.index t (1 : Fin 2) * 10000 + 1 * l.val = l.val; omega

/-- What point t writes back to the next support is block t of the layer's function of the four arrays. -/
theorem flushed4 (c : Dev nD) (t : Fin cfg3.N) :
    (dat3 V c).flushed 4 t = ((cfg3.win 4).blk t).view.read (Elt Ideal)
      (next (N := 10000) (C := 128) (C' := 128) (V c main_v2_1) (V c main_v4) (V c main_v5) (V c main_arg8)) := by
  show (cfg3.win 4).cut (grid3.coords t) ((dat3 V c).after 4 t) = _
  rw [after3_4]
  unfold out3_4
  rw [View.canon_unit_zero hz]
  simp only [View.ld_unit_zero (S := S400x10000) hz, View.ld_unit_zero (S := S10000x128) hz,
    View.ld_unit_zero (S := S1x128) hz, View.ld_unit_zero (S := S128x128) hz]
  have e := idx t
  funext j
  show k3_pay1 (F := Ideal) (iblk3 V c 0 t) (iblk3 V c 1 t) (iblk3 V c 2 t) (iblk3 V c 3 t) j
    = next (N := 10000) (C := 128) (C' := 128) (V c main_v2_1) (V c main_v4) (V c main_v5) (V c main_arg8)
        (((cfg3.win 4).blk t).view.emb j)
  refine (Pay.layer3 _ _ _ _ j).trans ?_
  refine next_of_blocks j _ (Fin.ext ?_) (fun l => blk_a V c t j l) (blk_s V c t) (blk_b V c t) (blk_w V c t)
  show (j 1).val = win3_4.index t (1 : Fin 2) * 128 + 1 * (j 1).val
  omega

/-- An index of the array lies in point t's block of window 4 iff each coordinate lies in the block's range. -/
theorem mem4 (t : Fin cfg3.N) (i : S10000x128.Idx) :
    i ∈ ((cfg3.win 4).blk t).view.set ↔ ∀ a : Fin 2, win3_4.index t a * S400x128.size a ≤ (i a).val ∧ (i a).val < win3_4.index t a * S400x128.size a + S400x128.size a := by
  show i ∈ ((View.whole main_v6).slice (win3_4.rect t)).set ↔ _
  rw [View.set_slice_whole, Rect.mem_set_unit]
  exact Iff.rfl

/-- Row r lies in the block of point r / 400: the 25 blocks of 400 rows tile the array. -/
theorem cover4 (i : S10000x128.Idx) :
    ∃ t : Fin cfg3.N, (cfg3.win 4).flush t = true ∧ i ∈ ((cfg3.win 4).blk t).view.set := by
  have hi0 : (i 0).val < 10000 := (i 0).isLt
  have hi1 : (i 1).val < 128 := (i 1).isLt
  obtain ⟨t, ht⟩ : ∃ t : Fin cfg3.N, t.val = (i 0).val / 400 :=
    ⟨⟨(i 0).val / 400, by show (i 0).val / 400 < 25; omega⟩, rfl⟩
  have e := idx t
  refine ⟨t, flush3_4 t, ?_⟩
  rw [mem4]
  intro a
  match a with
  | ⟨0, _⟩ => show win3_4.index t (0 : Fin 2) * 400 ≤ (i 0).val ∧ (i 0).val < win3_4.index t (0 : Fin 2) * 400 + 400; omega
  | ⟨1, _⟩ => show win3_4.index t (1 : Fin 2) * 128 ≤ (i 1).val ∧ (i 1).val < win3_4.index t (1 : Fin 2) * 128 + 128; omega

/-- After the region the next support holds the layer's function of the arrays as the region found them. -/
theorem support_out (c : Dev nD) :
    (dat3 V c).arrAt 4 cfg3.N
      = next (N := 10000) (C := 128) (C' := 128) (V c main_v2_1) (V c main_v4) (V c main_v5) (V c main_arg8) :=
  (dat3 V c).arrAt_eq_of_cover 4 _ (fun t _ => flushed4 V c t) cover4

end Cert.KernelIdeal.Reg3

end
-- ==== Proof.Region4.lean ====
/-
  Layer 4's region, for any contents `V` of the buffers at its entry.

  The grid has 25 points; point t takes rows 400 t … 400 t + 399 of the adjacency copy and the whole of the support,
  the bias row and the next weights, and writes back the same rows of the next support: row r is
  (max (A · S + B) 0) · W at row r, a function of row r of A alone. The 25 row blocks tile the array, so after the
  region the next support holds the layer's function of the four arrays.
-/
import proofs.«141864_g56126632624284_cont_9to1_m_1356_5_alg».proof.Proof.Gen.KernelIdeal.Frame
import proofs.«141864_g56126632624284_cont_9to1_m_1356_5_alg».proof.Proof.KernelPay

set_option maxRecDepth 16384

noncomputable section

namespace Cert.KernelIdeal.Reg4

open Idealize.ShloMosaic Idealize.ShloMosaic.TcCoe Idealize.ShloMosaic.ValueIdx Idealize.SL.Sem
open Cert.KernelIdeal Cert.KernelIdeal.Gen Cert.Dense Cert.Gcn
open Idealize.ShloMosaic.Pipeline (Dat)

-- the buffer contents when the region is entered: every statement here holds for any of them
variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the adjacency block and the output follow the point, the support, the
    bias row and the weights stay at block 0. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The support's block at any point is the whole support. -/
theorem blk_s (c : Dev nD) (t : Fin cfg4.N) : (iblk4 V c 1 t : S10000x128.Idx → EReal) = V c main_v6 := by
  have e := idx t
  funext y
  show V c main_v6 (((cfg4.win 1).blk t).view.emb y) = V c main_v6 y
  refine congrArg (V c main_v6) (funext fun a => Fin.ext ?_)
  match a with
  | ⟨0, _⟩ => show win4_1.index t (0 : Fin 2) * 10000 + 1 * (y 0).val = (y 0).val; omega
  | ⟨1, _⟩ => show win4_1.index t (1 : Fin 2) * 128 + 1 * (y 1).val = (y 1).val; omega

/-- The bias row's block at any point is the whole row. -/
theorem blk_b (c : Dev nD) (t : Fin cfg4.N) : (iblk4 V c 2 t : S1x128.Idx → EReal) = V c main_v7 := by
  have e := idx t
  funext y
  show V c main_v7 (((cfg4.win 2).blk t).view.emb y) = V c main_v7 y
  refine congrArg (V c main_v7) (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The weights' block at any point is the whole matrix. -/
theorem blk_w (c : Dev nD) (t : Fin cfg4.N) : (iblk4 V c 3 t : S128x128.Idx → EReal) = V c main_arg10 := by
  have e := idx t
  funext y
  show V c main_arg10 (((cfg4.win 3).blk t).view.emb y) = V c main_arg10 y
  refine congrArg (V c main_arg10) (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Row (j 0) of point t's adjacency block is the row of the adjacency copy that row (j 0) of point t's output block is. -/
theorem blk_a (c : Dev nD) (t : Fin cfg4.N) (j : S400x128.Idx) (l : Fin 10000) :
    (iblk4 V c 0 t : S400x10000.Idx → EReal) (ix2 (j 0) l)
      = V c main_v2_1 (ix2 ((((cfg4.win 4).blk t).view.emb j) 0) l) := by
  have e := idx t
  show V c main_v2_1 (((cfg4.win 0).blk t).view.emb (ix2 (j 0) l)) = _
  refine congrArg (V c main_v2_1) (funext fun a => Fin.ext ?_)
  match a with
  | ⟨0, _⟩ => show win4_0.index t (0 : Fin 2) * 400 + 1 * (j 0).val = win4_4.index t (0 : Fin 2) * 400 + 1 * (j 0).val; omega
  | ⟨1, _⟩ => show win4_0.index t (1 : Fin 2) * 10000 + 1 * l.val = l.val; omega

/-- What point t writes back to the next support is block t of the layer's function of the four arrays. -/
theorem flushed4 (c : Dev nD) (t : Fin cfg4.N) :
    (dat4 V c).flushed 4 t = ((cfg4.win 4).blk t).view.read (Elt Ideal)
      (next (N := 10000) (C := 128) (C' := 128) (V c main_v2_1) (V c main_v6) (V c main_v7) (V c main_arg10)) := by
  show (cfg4.win 4).cut (grid4.coords t) ((dat4 V c).after 4 t) = _
  rw [after4_4]
  unfold out4_4
  rw [View.canon_unit_zero hz]
  simp only [View.ld_unit_zero (S := S400x10000) hz, View.ld_unit_zero (S := S10000x128) hz,
    View.ld_unit_zero (S := S1x128) hz, View.ld_unit_zero (S := S128x128) hz]
  have e := idx t
  funext j
  show k4_pay1 (F := Ideal) (iblk4 V c 0 t) (iblk4 V c 1 t) (iblk4 V c 2 t) (iblk4 V c 3 t) j
    = next (N := 10000) (C := 128) (C' := 128) (V c main_v2_1) (V c main_v6) (V c main_v7) (V c main_arg10)
        (((cfg4.win 4).blk t).view.emb j)
  refine (Pay.layer4 _ _ _ _ j).trans ?_
  refine next_of_blocks j _ (Fin.ext ?_) (fun l => blk_a V c t j l) (blk_s V c t) (blk_b V c t) (blk_w V c t)
  show (j 1).val = win4_4.index t (1 : Fin 2) * 128 + 1 * (j 1).val
  omega

/-- An index of the array lies in point t's block of window 4 iff each coordinate lies in the block's range. -/
theorem mem4 (t : Fin cfg4.N) (i : S10000x128.Idx) :
    i ∈ ((cfg4.win 4).blk t).view.set ↔ ∀ a : Fin 2, win4_4.index t a * S400x128.size a ≤ (i a).val ∧ (i a).val < win4_4.index t a * S400x128.size a + S400x128.size a := by
  show i ∈ ((View.whole main_v8).slice (win4_4.rect t)).set ↔ _
  rw [View.set_slice_whole, Rect.mem_set_unit]
  exact Iff.rfl

/-- Row r lies in the block of point r / 400: the 25 blocks of 400 rows tile the array. -/
theorem cover4 (i : S10000x128.Idx) :
    ∃ t : Fin cfg4.N, (cfg4.win 4).flush t = true ∧ i ∈ ((cfg4.win 4).blk t).view.set := by
  have hi0 : (i 0).val < 10000 := (i 0).isLt
  have hi1 : (i 1).val < 128 := (i 1).isLt
  obtain ⟨t, ht⟩ : ∃ t : Fin cfg4.N, t.val = (i 0).val / 400 :=
    ⟨⟨(i 0).val / 400, by show (i 0).val / 400 < 25; omega⟩, rfl⟩
  have e := idx t
  refine ⟨t, flush4_4 t, ?_⟩
  rw [mem4]
  intro a
  match a with
  | ⟨0, _⟩ => show win4_4.index t (0 : Fin 2) * 400 ≤ (i 0).val ∧ (i 0).val < win4_4.index t (0 : Fin 2) * 400 + 400; omega
  | ⟨1, _⟩ => show win4_4.index t (1 : Fin 2) * 128 ≤ (i 1).val ∧ (i 1).val < win4_4.index t (1 : Fin 2) * 128 + 128; omega

/-- After the region the next support holds the layer's function of the arrays as the region found them. -/
theorem support_out (c : Dev nD) :
    (dat4 V c).arrAt 4 cfg4.N
      = next (N := 10000) (C := 128) (C' := 128) (V c main_v2_1) (V c main_v6) (V c main_v7) (V c main_arg10) :=
  (dat4 V c).arrAt_eq_of_cover 4 _ (fun t _ => flushed4 V c t) cover4

end Cert.KernelIdeal.Reg4

end
-- ==== Proof.Region5.lean ====
/-
  Layer 5's region, for any contents `V` of the buffers at its entry.

  The grid has 25 points; point t takes rows 400 t … 400 t + 399 of the adjacency copy and the whole of the support,
  the bias row and the next weights, and writes back the same rows of the next support: row r is
  (max (A · S + B) 0) · W at row r, a function of row r of A alone. The 25 row blocks tile the array, so after the
  region the next support holds the layer's function of the four arrays.
-/
import proofs.«141864_g56126632624284_cont_9to1_m_1356_5_alg».proof.Proof.Gen.KernelIdeal.Frame
import proofs.«141864_g56126632624284_cont_9to1_m_1356_5_alg».proof.Proof.KernelPay

set_option maxRecDepth 16384

noncomputable section

namespace Cert.KernelIdeal.Reg5

open Idealize.ShloMosaic Idealize.ShloMosaic.TcCoe Idealize.ShloMosaic.ValueIdx Idealize.SL.Sem
open Cert.KernelIdeal Cert.KernelIdeal.Gen Cert.Dense Cert.Gcn
open Idealize.ShloMosaic.Pipeline (Dat)

-- the buffer contents when the region is entered: every statement here holds for any of them
variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the adjacency block and the output follow the point, the support, the
    bias row and the weights stay at block 0. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The support's block at any point is the whole support. -/
theorem blk_s (c : Dev nD) (t : Fin cfg5.N) : (iblk5 V c 1 t : S10000x128.Idx → EReal) = V c main_v8 := by
  have e := idx t
  funext y
  show V c main_v8 (((cfg5.win 1).blk t).view.emb y) = V c main_v8 y
  refine congrArg (V c main_v8) (funext fun a => Fin.ext ?_)
  match a with
  | ⟨0, _⟩ => show win5_1.index t (0 : Fin 2) * 10000 + 1 * (y 0).val = (y 0).val; omega
  | ⟨1, _⟩ => show win5_1.index t (1 : Fin 2) * 128 + 1 * (y 1).val = (y 1).val; omega

/-- The bias row's block at any point is the whole row. -/
theorem blk_b (c : Dev nD) (t : Fin cfg5.N) : (iblk5 V c 2 t : S1x128.Idx → EReal) = V c main_v9 := by
  have e := idx t
  funext y
  show V c main_v9 (((cfg5.win 2).blk t).view.emb y) = V c main_v9 y
  refine congrArg (V c main_v9) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The weights' block at any point is the whole matrix. -/
theorem blk_w (c : Dev nD) (t : Fin cfg5.N) : (iblk5 V c 3 t : S128x64.Idx → EReal) = V c main_arg12 := by
  have e := idx t
  funext y
  show V c main_arg12 (((cfg5.win 3).blk t).view.emb y) = V c main_arg12 y
  refine congrArg (V c main_arg12) (funext fun a => Fin.ext ?_)
  match a with
  | ⟨0, _⟩ => show win5_3.index t (0 : Fin 2) * 128 + 1 * (y 0).val = (y 0).val; omega
  | ⟨1, _⟩ => show win5_3.index t (1 : Fin 2) * 64 + 1 * (y 1).val = (y 1).val; omega

/-- Row (j 0) of point t's adjacency block is the row of the adjacency copy that row (j 0) of point t's output block is. -/
theorem blk_a (c : Dev nD) (t : Fin cfg5.N) (j : S400x64.Idx) (l : Fin 10000) :
    (iblk5 V c 0 t : S400x10000.Idx → EReal) (ix2 (j 0) l)
      = V c main_v2_1 (ix2 ((((cfg5.win 4).blk t).view.emb j) 0) l) := by
  have e := idx t
  show V c main_v2_1 (((cfg5.win 0).blk t).view.emb (ix2 (j 0) l)) = _
  refine congrArg (V c main_v2_1) (funext fun a => Fin.ext ?_)
  match a with
  | ⟨0, _⟩ => show win5_0.index t (0 : Fin 2) * 400 + 1 * (j 0).val = win5_4.index t (0 : Fin 2) * 400 + 1 * (j 0).val; omega
  | ⟨1, _⟩ => show win5_0.index t (1 : Fin 2) * 10000 + 1 * l.val = l.val; omega

/-- What point t writes back to the next support is block t of the layer's function of the four arrays. -/
theorem flushed4 (c : Dev nD) (t : Fin cfg5.N) :
    (dat5 V c).flushed 4 t = ((cfg5.win 4).blk t).view.read (Elt Ideal)
      (next (N := 10000) (C := 128) (C' := 64) (V c main_v2_1) (V c main_v8) (V c main_v9) (V c main_arg12)) := by
  show (cfg5.win 4).cut (grid5.coords t) ((dat5 V c).after 4 t) = _
  rw [after5_4]
  unfold out5_4
  rw [View.canon_unit_zero hz]
  simp only [View.ld_unit_zero (S := S400x10000) hz, View.ld_unit_zero (S := S10000x128) hz,
    View.ld_unit_zero (S := S1x128) hz, View.ld_unit_zero (S := S128x64) hz]
  have e := idx t
  funext j
  show k5_pay1 (F := Ideal) (iblk5 V c 0 t) (iblk5 V c 1 t) (iblk5 V c 2 t) (iblk5 V c 3 t) j
    = next (N := 10000) (C := 128) (C' := 64) (V c main_v2_1) (V c main_v8) (V c main_v9) (V c main_arg12)
        (((cfg5.win 4).blk t).view.emb j)
  refine (Pay.layer5 _ _ _ _ j).trans ?_
  refine next_of_blocks j _ (Fin.ext ?_) (fun l => blk_a V c t j l) (blk_s V c t) (blk_b V c t) (blk_w V c t)
  show (j 1).val = win5_4.index t (1 : Fin 2) * 64 + 1 * (j 1).val
  omega

/-- An index of the array lies in point t's block of window 4 iff each coordinate lies in the block's range. -/
theorem mem4 (t : Fin cfg5.N) (i : S10000x64.Idx) :
    i ∈ ((cfg5.win 4).blk t).view.set ↔ ∀ a : Fin 2, win5_4.index t a * S400x64.size a ≤ (i a).val ∧ (i a).val < win5_4.index t a * S400x64.size a + S400x64.size a := by
  show i ∈ ((View.whole main_v10).slice (win5_4.rect t)).set ↔ _
  rw [View.set_slice_whole, Rect.mem_set_unit]
  exact Iff.rfl

/-- Row r lies in the block of point r / 400: the 25 blocks of 400 rows tile the array. -/
theorem cover4 (i : S10000x64.Idx) :
    ∃ t : Fin cfg5.N, (cfg5.win 4).flush t = true ∧ i ∈ ((cfg5.win 4).blk t).view.set := by
  have hi0 : (i 0).val < 10000 := (i 0).isLt
  have hi1 : (i 1).val < 64 := (i 1).isLt
  obtain ⟨t, ht⟩ : ∃ t : Fin cfg5.N, t.val = (i 0).val / 400 :=
    ⟨⟨(i 0).val / 400, by show (i 0).val / 400 < 25; omega⟩, rfl⟩
  have e := idx t
  refine ⟨t, flush5_4 t, ?_⟩
  rw [mem4]
  intro a
  match a with
  | ⟨0, _⟩ => show win5_4.index t (0 : Fin 2) * 400 ≤ (i 0).val ∧ (i 0).val < win5_4.index t (0 : Fin 2) * 400 + 400; omega
  | ⟨1, _⟩ => show win5_4.index t (1 : Fin 2) * 64 ≤ (i 1).val ∧ (i 1).val < win5_4.index t (1 : Fin 2) * 64 + 64; omega

/-- After the region the next support holds the layer's function of the arrays as the region found them. -/
theorem support_out (c : Dev nD) :
    (dat5 V c).arrAt 4 cfg5.N
      = next (N := 10000) (C := 128) (C' := 64) (V c main_v2_1) (V c main_v8) (V c main_v9) (V c main_arg12) :=
  (dat5 V c).arrAt_eq_of_cover 4 _ (fun t _ => flushed4 V c t) cover4

end Cert.KernelIdeal.Reg5

end
-- ==== Proof.Region6.lean ====
/-
  The last region, for any contents `V` of the buffers at its entry.

  The grid has 25 points; point t takes rows 400 t … 400 t + 399 of the adjacency copy and the whole of the last
  support and the last bias row, and writes back the same rows of the result: row r is A · S + B at row r, not
  clipped. The 25 row blocks tile the result, so after the region it holds the convolution of the three arrays.
-/
import proofs.«141864_g56126632624284_cont_9to1_m_1356_5_alg».proof.Proof.Gen.KernelIdeal.Frame
import proofs.«141864_g56126632624284_cont_9to1_m_1356_5_alg».proof.Proof.KernelPay

set_option maxRecDepth 16384

noncomputable section

namespace Cert.KernelIdeal.Reg6

open Idealize.ShloMosaic Idealize.ShloMosaic.TcCoe Idealize.ShloMosaic.ValueIdx Idealize.SL.Sem
open Cert.KernelIdeal Cert.KernelIdeal.Gen Cert.Dense Cert.Gcn
open Idealize.ShloMosaic.Pipeline (Dat)

-- the buffer contents when the region is entered: every statement here holds for any of them
variable (V : (c : Dev nD) → (b : Ref sig .tc) → Buf (Elt Ideal) ((c : Thread nD τ).loc b))

theorem hz : (![0, 0] : Fin 2 → Nat) = fun _ => 0 := funext fun a => by fin_cases a <;> rfl

/-- The index maps over the 25 grid points: the adjacency block and the output follow the point, the support and
    the bias row stay at block 0. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The support's block at any point is the whole support. -/
theorem blk_s (c : Dev nD) (t : Fin cfg6.N) : (iblk6 V c 1 t : S10000x64.Idx → EReal) = V c main_v10 := by
  have e := idx t
  funext y
  show V c main_v10 (((cfg6.win 1).blk t).view.emb y) = V c main_v10 y
  refine congrArg (V c main_v10) (funext fun a => Fin.ext ?_)
  match a with
  | ⟨0, _⟩ => show win6_1.index t (0 : Fin 2) * 10000 + 1 * (y 0).val = (y 0).val; omega
  | ⟨1, _⟩ => show win6_1.index t (1 : Fin 2) * 64 + 1 * (y 1).val = (y 1).val; omega

/-- The bias row's block at any point is the whole row. -/
theorem blk_b (c : Dev nD) (t : Fin cfg6.N) : (iblk6 V c 2 t : S1x64.Idx → EReal) = V c main_v11 := by
  have e := idx t
  funext y
  show V c main_v11 (((cfg6.win 2).blk t).view.emb y) = V c main_v11 y
  refine congrArg (V c main_v11) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Row (j 0) of point t's adjacency block is the row of the adjacency copy that row (j 0) of point t's output block is. -/
theorem blk_a (c : Dev nD) (t : Fin cfg6.N) (j : S400x64.Idx) (l : Fin 10000) :
    (iblk6 V c 0 t : S400x10000.Idx → EReal) (ix2 (j 0) l)
      = V c main_v2_1 (ix2 ((((cfg6.win 3).blk t).view.emb j) 0) l) := by
  have e := idx t
  show V c main_v2_1 (((cfg6.win 0).blk t).view.emb (ix2 (j 0) l)) = _
  refine congrArg (V c main_v2_1) (funext fun a => Fin.ext ?_)
  match a with
  | ⟨0, _⟩ => show win6_0.index t (0 : Fin 2) * 400 + 1 * (j 0).val = win6_3.index t (0 : Fin 2) * 400 + 1 * (j 0).val; omega
  | ⟨1, _⟩ => show win6_0.index t (1 : Fin 2) * 10000 + 1 * l.val = l.val; omega

/-- What point t writes back is block t of the convolution of the three arrays. -/
theorem flushed3 (c : Dev nD) (t : Fin cfg6.N) :
    (dat6 V c).flushed 3 t = ((cfg6.win 3).blk t).view.read (Elt Ideal)
      (lin (R := 10000) (K := 10000) (C := 64) (V c main_v2_1) (V c main_v10) (V c main_v11)) := by
  show (cfg6.win 3).cut (grid6.coords t) ((dat6 V c).after 3 t) = _
  rw [after6_3]
  unfold out6_3
  rw [View.canon_unit_zero hz]
  simp only [View.ld_unit_zero (S := S400x10000) hz, View.ld_unit_zero (S := S10000x64) hz,
    View.ld_unit_zero (S := S1x64) hz]
  have e := idx t
  funext j
  show k6_pay1 (F := Ideal) (iblk6 V c 0 t) (iblk6 V c 1 t) (iblk6 V c 2 t) j
    = lin (R := 10000) (K := 10000) (C := 64) (V c main_v2_1) (V c main_v10) (V c main_v11)
        (((cfg6.win 3).blk t).view.emb j)
  refine (Pay.last _ _ _ j).trans ?_
  refine lin_of_blocks j _ (Fin.ext ?_) (fun l => blk_a V c t j l) (blk_s V c t) (blk_b V c t)
  show (j 1).val = win6_3.index t (1 : Fin 2) * 64 + 1 * (j 1).val
  omega

/-- An index of the array lies in point t's block of window 3 iff each coordinate lies in the block's range. -/
theorem mem3 (t : Fin cfg6.N) (i : S10000x64.Idx) :
    i ∈ ((cfg6.win 3).blk t).view.set ↔ ∀ a : Fin 2, win6_3.index t a * S400x64.size a ≤ (i a).val ∧ (i a).val < win6_3.index t a * S400x64.size a + S400x64.size a := by
  show i ∈ ((View.whole main_v12).slice (win6_3.rect t)).set ↔ _
  rw [View.set_slice_whole, Rect.mem_set_unit]
  exact Iff.rfl

/-- Row r lies in the block of point r / 400: the 25 blocks of 400 rows tile the array. -/
theorem cover3 (i : S10000x64.Idx) :
    ∃ t : Fin cfg6.N, (cfg6.win 3).flush t = true ∧ i ∈ ((cfg6.win 3).blk t).view.set := by
  have hi0 : (i 0).val < 10000 := (i 0).isLt
  have hi1 : (i 1).val < 64 := (i 1).isLt
  obtain ⟨t, ht⟩ : ∃ t : Fin cfg6.N, t.val = (i 0).val / 400 :=
    ⟨⟨(i 0).val / 400, by show (i 0).val / 400 < 25; omega⟩, rfl⟩
  have e := idx t
  refine ⟨t, flush6_3 t, ?_⟩
  rw [mem3]
  intro a
  match a with
  | ⟨0, _⟩ => show win6_3.index t (0 : Fin 2) * 400 ≤ (i 0).val ∧ (i 0).val < win6_3.index t (0 : Fin 2) * 400 + 400; omega
  | ⟨1, _⟩ => show win6_3.index t (1 : Fin 2) * 64 ≤ (i 1).val ∧ (i 1).val < win6_3.index t (1 : Fin 2) * 64 + 64; omega

/-- After the region the result holds the convolution of the arrays as the region found them. -/
theorem result_out (c : Dev nD) :
    (dat6 V c).arrAt 3 cfg6.N
      = lin (R := 10000) (K := 10000) (C := 64) (V c main_v2_1) (V c main_v10) (V c main_v11) :=
  (dat6 V c).arrAt_eq_of_cover 3 _ (fun t _ => flushed3 V c t) cover3

end Cert.KernelIdeal.Reg6

end
-- ==== Proof.KernelFold.lean ====
/-
  The buffers between the seven regions.

  The program is seven kernel regions with one host reshape (a bias vector laid out as a [1, C] row) before each of
  the last six. A region changes only the arrays it writes back; a reshape changes only its result. So a buffer that
  no step up to a boundary writes still holds what it held at launch, and a buffer a step wrote holds that step's
  value until the end. Reading the arrays each region finds in this way, the supports are, one after the other, the
  layers of the network applied to the launch arrays, the adjacency copy is the adjacency matrix, and the result is
  the network's function of the fourteen arguments.
-/
import proofs.«141864_g56126632624284_cont_9to1_m_1356_5_alg».proof.Proof.Region0
import proofs.«141864_g56126632624284_cont_9to1_m_1356_5_alg».proof.Proof.Region1
import proofs.«141864_g56126632624284_cont_9to1_m_1356_5_alg».proof.Proof.Region2
import proofs.«141864_g56126632624284_cont_9to1_m_1356_5_alg».proof.Proof.Region3
import proofs.«141864_g56126632624284_cont_9to1_m_1356_5_alg».proof.Proof.Region4
import proofs.«141864_g56126632624284_cont_9to1_m_1356_5_alg».proof.Proof.Region5
import proofs.«141864_g56126632624284_cont_9to1_m_1356_5_alg».proof.Proof.Region6

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen Cert.Dense Cert.Gcn

variable (m : (ℓ : Loc nD τ sig) → Buf (Elt Ideal) ℓ) (ρ : Dev nD → PrngReg)

/-! ## One step keeps every buffer it does not write -/

/-- Region 0 changes only `main_v0`: an array it only reads ends as it was found, and any other buffer is untouched. -/
theorem reg0_keep (c : Dev nD) (b : Ref sig .tc) (h2 : b ≠ main_v0) :
    W1 m ρ c (Proc.devRef .tc b) = W0 m ρ c (Proc.devRef .tc b) := by
  by_cases h : ∀ w, Pipeline.arrRef spec0 w ≠ b
  · exact W1_of_ne m ρ c b h
  · obtain ⟨w, hw⟩ := not_forall.mp h
    have hw' : Pipeline.arrRef spec0 w = b := not_not.mp hw
    subst hw'
    match w with
    | ⟨0, _⟩ => exact (W1_arr m ρ c 0).trans (((dat0 (V0 m ρ) c).arrAt_in 0 rfl _).trans (A_eq0 (V0 m ρ) c 0))
    | ⟨1, _⟩ => exact (W1_arr m ρ c 1).trans (((dat0 (V0 m ρ) c).arrAt_in 1 rfl _).trans (A_eq0 (V0 m ρ) c 1))
    | ⟨2, _⟩ => exact absurd rfl h2

/-- Region 1 changes only `main_v2_0` and `main_v2_1`: an array it only reads ends as it was found, and any other buffer is untouched. -/
theorem reg1_keep (c : Dev nD) (b : Ref sig .tc) (h4 : b ≠ main_v2_0) (h5 : b ≠ main_v2_1) :
    W3 m ρ c (Proc.devRef .tc b) = W2 m ρ c (Proc.devRef .tc b) := by
  by_cases h : ∀ w, Pipeline.arrRef spec1 w ≠ b
  · exact W3_of_ne m ρ c b h
  · obtain ⟨w, hw⟩ := not_forall.mp h
    have hw' : Pipeline.arrRef spec1 w = b := not_not.mp hw
    subst hw'
    match w with
    | ⟨0, _⟩ => exact (W3_arr m ρ c 0).trans (((dat1 (V2 m ρ) c).arrAt_in 0 rfl _).trans (A_eq1 (V2 m ρ) c 0))
    | ⟨1, _⟩ => exact (W3_arr m ρ c 1).trans (((dat1 (V2 m ρ) c).arrAt_in 1 rfl _).trans (A_eq1 (V2 m ρ) c 1))
    | ⟨2, _⟩ => exact (W3_arr m ρ c 2).trans (((dat1 (V2 m ρ) c).arrAt_in 2 rfl _).trans (A_eq1 (V2 m ρ) c 2))
    | ⟨3, _⟩ => exact (W3_arr m ρ c 3).trans (((dat1 (V2 m ρ) c).arrAt_in 3 rfl _).trans (A_eq1 (V2 m ρ) c 3))
    | ⟨4, _⟩ => exact absurd rfl h4
    | ⟨5, _⟩ => exact absurd rfl h5

/-- Region 2 changes only `main_v4`: an array it only reads ends as it was found, and any other buffer is untouched. -/
theorem reg2_keep (c : Dev nD) (b : Ref sig .tc) (h4 : b ≠ main_v4) :
    W5 m ρ c (Proc.devRef .tc b) = W4 m ρ c (Proc.devRef .tc b) := by
  by_cases h : ∀ w, Pipeline.arrRef spec2 w ≠ b
  · exact W5_of_ne m ρ c b h
  · obtain ⟨w, hw⟩ := not_forall.mp h
    have hw' : Pipeline.arrRef spec2 w = b := not_not.mp hw
    subst hw'
    match w with
    | ⟨0, _⟩ => exact (W5_arr m ρ c 0).trans (((dat2 (V4 m ρ) c).arrAt_in 0 rfl _).trans (A_eq2 (V4 m ρ) c 0))
    | ⟨1, _⟩ => exact (W5_arr m ρ c 1).trans (((dat2 (V4 m ρ) c).arrAt_in 1 rfl _).trans (A_eq2 (V4 m ρ) c 1))
    | ⟨2, _⟩ => exact (W5_arr m ρ c 2).trans (((dat2 (V4 m ρ) c).arrAt_in 2 rfl _).trans (A_eq2 (V4 m ρ) c 2))
    | ⟨3, _⟩ => exact (W5_arr m ρ c 3).trans (((dat2 (V4 m ρ) c).arrAt_in 3 rfl _).trans (A_eq2 (V4 m ρ) c 3))
    | ⟨4, _⟩ => exact absurd rfl h4

/-- Region 3 changes only `main_v6`: an array it only reads ends as it was found, and any other buffer is untouched. -/
theorem reg3_keep (c : Dev nD) (b : Ref sig .tc) (h4 : b ≠ main_v6) :
    W7 m ρ c (Proc.devRef .tc b) = W6 m ρ c (Proc.devRef .tc b) := by
  by_cases h : ∀ w, Pipeline.arrRef spec3 w ≠ b
  · exact W7_of_ne m ρ c b h
  · obtain ⟨w, hw⟩ := not_forall.mp h
    have hw' : Pipeline.arrRef spec3 w = b := not_not.mp hw
    subst hw'
    match w with
    | ⟨0, _⟩ => exact (W7_arr m ρ c 0).trans (((dat3 (V6 m ρ) c).arrAt_in 0 rfl _).trans (A_eq3 (V6 m ρ) c 0))
    | ⟨1, _⟩ => exact (W7_arr m ρ c 1).trans (((dat3 (V6 m ρ) c).arrAt_in 1 rfl _).trans (A_eq3 (V6 m ρ) c 1))
    | ⟨2, _⟩ => exact (W7_arr m ρ c 2).trans (((dat3 (V6 m ρ) c).arrAt_in 2 rfl _).trans (A_eq3 (V6 m ρ) c 2))
    | ⟨3, _⟩ => exact (W7_arr m ρ c 3).trans (((dat3 (V6 m ρ) c).arrAt_in 3 rfl _).trans (A_eq3 (V6 m ρ) c 3))
    | ⟨4, _⟩ => exact absurd rfl h4

/-- Region 4 changes only `main_v8`: an array it only reads ends as it was found, and any other buffer is untouched. -/
theorem reg4_keep (c : Dev nD) (b : Ref sig .tc) (h4 : b ≠ main_v8) :
    W9 m ρ c (Proc.devRef .tc b) = W8 m ρ c (Proc.devRef .tc b) := by
  by_cases h : ∀ w, Pipeline.arrRef spec4 w ≠ b
  · exact W9_of_ne m ρ c b h
  · obtain ⟨w, hw⟩ := not_forall.mp h
    have hw' : Pipeline.arrRef spec4 w = b := not_not.mp hw
    subst hw'
    match w with
    | ⟨0, _⟩ => exact (W9_arr m ρ c 0).trans (((dat4 (V8 m ρ) c).arrAt_in 0 rfl _).trans (A_eq4 (V8 m ρ) c 0))
    | ⟨1, _⟩ => exact (W9_arr m ρ c 1).trans (((dat4 (V8 m ρ) c).arrAt_in 1 rfl _).trans (A_eq4 (V8 m ρ) c 1))
    | ⟨2, _⟩ => exact (W9_arr m ρ c 2).trans (((dat4 (V8 m ρ) c).arrAt_in 2 rfl _).trans (A_eq4 (V8 m ρ) c 2))
    | ⟨3, _⟩ => exact (W9_arr m ρ c 3).trans (((dat4 (V8 m ρ) c).arrAt_in 3 rfl _).trans (A_eq4 (V8 m ρ) c 3))
    | ⟨4, _⟩ => exact absurd rfl h4

/-- Region 5 changes only `main_v10`: an array it only reads ends as it was found, and any other buffer is untouched. -/
theorem reg5_keep (c : Dev nD) (b : Ref sig .tc) (h4 : b ≠ main_v10) :
    W11 m ρ c (Proc.devRef .tc b) = W10 m ρ c (Proc.devRef .tc b) := by
  by_cases h : ∀ w, Pipeline.arrRef spec5 w ≠ b
  · exact W11_of_ne m ρ c b h
  · obtain ⟨w, hw⟩ := not_forall.mp h
    have hw' : Pipeline.arrRef spec5 w = b := not_not.mp hw
    subst hw'
    match w with
    | ⟨0, _⟩ => exact (W11_arr m ρ c 0).trans (((dat5 (V10 m ρ) c).arrAt_in 0 rfl _).trans (A_eq5 (V10 m ρ) c 0))
    | ⟨1, _⟩ => exact (W11_arr m ρ c 1).trans (((dat5 (V10 m ρ) c).arrAt_in 1 rfl _).trans (A_eq5 (V10 m ρ) c 1))
    | ⟨2, _⟩ => exact (W11_arr m ρ c 2).trans (((dat5 (V10 m ρ) c).arrAt_in 2 rfl _).trans (A_eq5 (V10 m ρ) c 2))
    | ⟨3, _⟩ => exact (W11_arr m ρ c 3).trans (((dat5 (V10 m ρ) c).arrAt_in 3 rfl _).trans (A_eq5 (V10 m ρ) c 3))
    | ⟨4, _⟩ => exact absurd rfl h4

/-- Region 6 changes only `main_v12`: an array it only reads ends as it was found, and any other buffer is untouched. -/
theorem reg6_keep (c : Dev nD) (b : Ref sig .tc) (h3 : b ≠ main_v12) :
    W13 m ρ c (Proc.devRef .tc b) = W12 m ρ c (Proc.devRef .tc b) := by
  by_cases h : ∀ w, Pipeline.arrRef spec6 w ≠ b
  · exact W13_of_ne m ρ c b h
  · obtain ⟨w, hw⟩ := not_forall.mp h
    have hw' : Pipeline.arrRef spec6 w = b := not_not.mp hw
    subst hw'
    match w with
    | ⟨0, _⟩ => exact (W13_arr m ρ c 0).trans (((dat6 (V12 m ρ) c).arrAt_in 0 rfl _).trans (A_eq6 (V12 m ρ) c 0))
    | ⟨1, _⟩ => exact (W13_arr m ρ c 1).trans (((dat6 (V12 m ρ) c).arrAt_in 1 rfl _).trans (A_eq6 (V12 m ρ) c 1))
    | ⟨2, _⟩ => exact (W13_arr m ρ c 2).trans (((dat6 (V12 m ρ) c).arrAt_in 2 rfl _).trans (A_eq6 (V12 m ρ) c 2))
    | ⟨3, _⟩ => exact absurd rfl h3

/-- The reshape before region 1 changes only its result `main_v1`. -/
theorem host1_keep (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    repeat' apply And.intro
    all_goals exact StableHlo.devRef_ne_of_ne hb))

/-- The reshape before region 2 changes only its result `main_v3`. -/
theorem host2_keep (c : Dev nD) (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    repeat' apply And.intro
    all_goals exact StableHlo.devRef_ne_of_ne hb))

/-- The reshape before region 3 changes only its result `main_v5`. -/
theorem host3_keep (c : Dev nD) (b : Ref sig .tc) (hb : b ≠ main_v5) :
    W6 m ρ c (Proc.devRef .tc b) = W5 m ρ c (Proc.devRef .tc b) :=
  StableHlo.after_of_forall_not_mem (b := Proc.devRef .tc b) _ _ (List.forall_iff_forall_mem.mp (by
    simp only [hostOps3, List.Forall, StableHlo.reshape_writes, Finset.mem_singleton]
    repeat' apply And.intro
    all_goals exact StableHlo.devRef_ne_of_ne hb))

/-- The reshape before region 4 changes only its result `main_v7`. -/
theorem host4_keep (c : Dev nD) (b : Ref sig .tc) (hb : b ≠ main_v7) :
    W8 m ρ c (Proc.devRef .tc b) = W7 m ρ c (Proc.devRef .tc b) :=
  StableHlo.after_of_forall_not_mem (b := Proc.devRef .tc b) _ _ (List.forall_iff_forall_mem.mp (by
    simp only [hostOps4, List.Forall, StableHlo.reshape_writes, Finset.mem_singleton]
    repeat' apply And.intro
    all_goals exact StableHlo.devRef_ne_of_ne hb))

/-- The reshape before region 5 changes only its result `main_v9`. -/
theorem host5_keep (c : Dev nD) (b : Ref sig .tc) (hb : b ≠ main_v9) :
    W10 m ρ c (Proc.devRef .tc b) = W9 m ρ c (Proc.devRef .tc b) :=
  StableHlo.after_of_forall_not_mem (b := Proc.devRef .tc b) _ _ (List.forall_iff_forall_mem.mp (by
    simp only [hostOps5, List.Forall, StableHlo.reshape_writes, Finset.mem_singleton]
    repeat' apply And.intro
    all_goals exact StableHlo.devRef_ne_of_ne hb))

/-- The reshape before region 6 changes only its result `main_v11`. -/
theorem host6_keep (c : Dev nD) (b : Ref sig .tc) (hb : b ≠ main_v11) :
    W12 m ρ c (Proc.devRef .tc b) = W11 m ρ c (Proc.devRef .tc b) :=
  StableHlo.after_of_forall_not_mem (b := Proc.devRef .tc b) _ _ (List.forall_iff_forall_mem.mp (by
    simp only [hostOps6, List.Forall, StableHlo.reshape_writes, Finset.mem_singleton]
    repeat' apply And.intro
    all_goals exact StableHlo.devRef_ne_of_ne hb))

/-! ## From a boundary back to the launch: a buffer no step so far has written -/

theorem keep1 (c : Dev nD) (b : Ref sig .tc) (h_v0 : b ≠ main_v0) :
    W1 m ρ c (Proc.devRef .tc b) = W0 m ρ c (Proc.devRef .tc b) :=
  (reg0_keep m ρ c b h_v0)

theorem keep2 (c : Dev nD) (b : Ref sig .tc) (h_v0 : b ≠ main_v0) (h_v1 : b ≠ main_v1) :
    W2 m ρ c (Proc.devRef .tc b) = W0 m ρ c (Proc.devRef .tc b) :=
  (host1_keep m ρ c b h_v1).trans (keep1 m ρ c b h_v0)

theorem keep3 (c : Dev nD) (b : Ref sig .tc) (h_v0 : b ≠ main_v0) (h_v1 : b ≠ main_v1) (h_v2_0 : b ≠ main_v2_0) (h_v2_1 : b ≠ main_v2_1) :
    W3 m ρ c (Proc.devRef .tc b) = W0 m ρ c (Proc.devRef .tc b) :=
  (reg1_keep m ρ c b h_v2_0 h_v2_1).trans (keep2 m ρ c b h_v0 h_v1)

theorem keep4 (c : Dev nD) (b : Ref sig .tc) (h_v0 : b ≠ main_v0) (h_v1 : b ≠ main_v1) (h_v2_0 : b ≠ main_v2_0) (h_v2_1 : b ≠ main_v2_1) (h_v3 : b ≠ main_v3) :
    W4 m ρ c (Proc.devRef .tc b) = W0 m ρ c (Proc.devRef .tc b) :=
  (host2_keep m ρ c b h_v3).trans (keep3 m ρ c b h_v0 h_v1 h_v2_0 h_v2_1)

theorem keep5 (c : Dev nD) (b : Ref sig .tc) (h_v0 : b ≠ main_v0) (h_v1 : b ≠ main_v1) (h_v2_0 : b ≠ main_v2_0) (h_v2_1 : b ≠ main_v2_1) (h_v3 : b ≠ main_v3) (h_v4 : b ≠ main_v4) :
    W5 m ρ c (Proc.devRef .tc b) = W0 m ρ c (Proc.devRef .tc b) :=
  (reg2_keep m ρ c b h_v4).trans (keep4 m ρ c b h_v0 h_v1 h_v2_0 h_v2_1 h_v3)

theorem keep6 (c : Dev nD) (b : Ref sig .tc) (h_v0 : b ≠ main_v0) (h_v1 : b ≠ main_v1) (h_v2_0 : b ≠ main_v2_0) (h_v2_1 : b ≠ main_v2_1) (h_v3 : b ≠ main_v3) (h_v4 : b ≠ main_v4) (h_v5 : b ≠ main_v5) :
    W6 m ρ c (Proc.devRef .tc b) = W0 m ρ c (Proc.devRef .tc b) :=
  (host3_keep m ρ c b h_v5).trans (keep5 m ρ c b h_v0 h_v1 h_v2_0 h_v2_1 h_v3 h_v4)

theorem keep7 (c : Dev nD) (b : Ref sig .tc) (h_v0 : b ≠ main_v0) (h_v1 : b ≠ main_v1) (h_v2_0 : b ≠ main_v2_0) (h_v2_1 : b ≠ main_v2_1) (h_v3 : b ≠ main_v3) (h_v4 : b ≠ main_v4) (h_v5 : b ≠ main_v5) (h_v6 : b ≠ main_v6) :
    W7 m ρ c (Proc.devRef .tc b) = W0 m ρ c (Proc.devRef .tc b) :=
  (reg3_keep m ρ c b h_v6).trans (keep6 m ρ c b h_v0 h_v1 h_v2_0 h_v2_1 h_v3 h_v4 h_v5)

theorem keep8 (c : Dev nD) (b : Ref sig .tc) (h_v0 : b ≠ main_v0) (h_v1 : b ≠ main_v1) (h_v2_0 : b ≠ main_v2_0) (h_v2_1 : b ≠ main_v2_1) (h_v3 : b ≠ main_v3) (h_v4 : b ≠ main_v4) (h_v5 : b ≠ main_v5) (h_v6 : b ≠ main_v6) (h_v7 : b ≠ main_v7) :
    W8 m ρ c (Proc.devRef .tc b) = W0 m ρ c (Proc.devRef .tc b) :=
  (host4_keep m ρ c b h_v7).trans (keep7 m ρ c b h_v0 h_v1 h_v2_0 h_v2_1 h_v3 h_v4 h_v5 h_v6)

theorem keep9 (c : Dev nD) (b : Ref sig .tc) (h_v0 : b ≠ main_v0) (h_v1 : b ≠ main_v1) (h_v2_0 : b ≠ main_v2_0) (h_v2_1 : b ≠ main_v2_1) (h_v3 : b ≠ main_v3) (h_v4 : b ≠ main_v4) (h_v5 : b ≠ main_v5) (h_v6 : b ≠ main_v6) (h_v7 : b ≠ main_v7) (h_v8 : b ≠ main_v8) :
    W9 m ρ c (Proc.devRef .tc b) = W0 m ρ c (Proc.devRef .tc b) :=
  (reg4_keep m ρ c b h_v8).trans (keep8 m ρ c b h_v0 h_v1 h_v2_0 h_v2_1 h_v3 h_v4 h_v5 h_v6 h_v7)

theorem keep10 (c : Dev nD) (b : Ref sig .tc) (h_v0 : b ≠ main_v0) (h_v1 : b ≠ main_v1) (h_v2_0 : b ≠ main_v2_0) (h_v2_1 : b ≠ main_v2_1) (h_v3 : b ≠ main_v3) (h_v4 : b ≠ main_v4) (h_v5 : b ≠ main_v5) (h_v6 : b ≠ main_v6) (h_v7 : b ≠ main_v7) (h_v8 : b ≠ main_v8) (h_v9 : b ≠ main_v9) :
    W10 m ρ c (Proc.devRef .tc b) = W0 m ρ c (Proc.devRef .tc b) :=
  (host5_keep m ρ c b h_v9).trans (keep9 m ρ c b h_v0 h_v1 h_v2_0 h_v2_1 h_v3 h_v4 h_v5 h_v6 h_v7 h_v8)

theorem keep11 (c : Dev nD) (b : Ref sig .tc) (h_v0 : b ≠ main_v0) (h_v1 : b ≠ main_v1) (h_v2_0 : b ≠ main_v2_0) (h_v2_1 : b ≠ main_v2_1) (h_v3 : b ≠ main_v3) (h_v4 : b ≠ main_v4) (h_v5 : b ≠ main_v5) (h_v6 : b ≠ main_v6) (h_v7 : b ≠ main_v7) (h_v8 : b ≠ main_v8) (h_v9 : b ≠ main_v9) (h_v10 : b ≠ main_v10) :
    W11 m ρ c (Proc.devRef .tc b) = W0 m ρ c (Proc.devRef .tc b) :=
  (reg5_keep m ρ c b h_v10).trans (keep10 m ρ c b h_v0 h_v1 h_v2_0 h_v2_1 h_v3 h_v4 h_v5 h_v6 h_v7 h_v8 h_v9)

theorem keep12 (c : Dev nD) (b : Ref sig .tc) (h_v0 : b ≠ main_v0) (h_v1 : b ≠ main_v1) (h_v2_0 : b ≠ main_v2_0) (h_v2_1 : b ≠ main_v2_1) (h_v3 : b ≠ main_v3) (h_v4 : b ≠ main_v4) (h_v5 : b ≠ main_v5) (h_v6 : b ≠ main_v6) (h_v7 : b ≠ main_v7) (h_v8 : b ≠ main_v8) (h_v9 : b ≠ main_v9) (h_v10 : b ≠ main_v10) (h_v11 : b ≠ main_v11) :
    W12 m ρ c (Proc.devRef .tc b) = W0 m ρ c (Proc.devRef .tc b) :=
  (host6_keep m ρ c b h_v11).trans (keep11 m ρ c b h_v0 h_v1 h_v2_0 h_v2_1 h_v3 h_v4 h_v5 h_v6 h_v7 h_v8 h_v9 h_v10)

/-! ## The arrays each region finds -/

/-- A bias vector laid out as the [1, 128] row the layer kernels take. -/
def row128 (b : S128.Idx → EReal) : Mat 1 128 := shapeCast S1x128 b shapeCasts_S128_S1x128
/-- The last bias vector laid out as a [1, 64] row. -/
def row64 (b : S64.Idx → EReal) : Mat 1 64 := shapeCast S1x64 b shapeCasts_S64_S1x64

theorem next_congr {N C C' : Nat} {A A' : Mat N N} {S S' : Mat N C} {B B' : Mat 1 C} {W W' : Mat C C'}
    (hA : A = A') (hS : S = S') (hB : B = B') (hW : W = W') : next A S B W = next A' S' B' W' := by
  subst hA hS hB hW; rfl

theorem conv_congr {N C : Nat} {A A' : Mat N N} {S S' : Mat N C} {B B' : Mat 1 C}
    (hA : A = A') (hS : S = S') (hB : B = B') : lin A S B = lin A' S' B' := by
  subst hA hS hB; rfl

/-- The row the reshape before region 1 leaves: the launch bias `main_arg3` as a row. -/
theorem bias1 (c : Dev nD) : W2 m ρ c (Proc.devRef .tc main_v1) = row128 (m ((c : Thread nD τ).loc main_arg3)) := by
  show StableHlo.after hostOps1 (W1 m ρ c) (Proc.devRef .tc main_v1) = _
  after_results
  exact congrArg row128 (keep1 m ρ c main_arg3 (by decide))

/-- The row the reshape before region 2 leaves: the launch bias `main_arg5` as a row. -/
theorem bias2 (c : Dev nD) : W4 m ρ c (Proc.devRef .tc main_v3) = row128 (m ((c : Thread nD τ).loc main_arg5)) := by
  show StableHlo.after hostOps2 (W3 m ρ c) (Proc.devRef .tc main_v3) = _
  after_results
  exact congrArg row128 (keep3 m ρ c main_arg5 (by decide) (by decide) (by decide) (by decide))

/-- The row the reshape before region 3 leaves: the launch bias `main_arg7` as a row. -/
theorem bias3 (c : Dev nD) : W6 m ρ c (Proc.devRef .tc main_v5) = row128 (m ((c : Thread nD τ).loc main_arg7)) := by
  show StableHlo.after hostOps3 (W5 m ρ c) (Proc.devRef .tc main_v5) = _
  after_results
  exact congrArg row128 (keep5 m ρ c main_arg7 (by decide) (by decide) (by decide) (by decide) (by decide) (by decide))

/-- The row the reshape before region 4 leaves: the launch bias `main_arg9` as a row. -/
theorem bias4 (c : Dev nD) : W8 m ρ c (Proc.devRef .tc main_v7) = row128 (m ((c : Thread nD τ).loc main_arg9)) := by
  show StableHlo.after hostOps4 (W7 m ρ c) (Proc.devRef .tc main_v7) = _
  after_results
  exact congrArg row128 (keep7 m ρ c main_arg9 (by decide) (by decide) (by decide) (by decide) (by decide) (by decide) (by decide) (by decide))

/-- The row the reshape before region 5 leaves: the launch bias `main_arg11` as a row. -/
theorem bias5 (c : Dev nD) : W10 m ρ c (Proc.devRef .tc main_v9) = row128 (m ((c : Thread nD τ).loc main_arg11)) := by
  show StableHlo.after hostOps5 (W9 m ρ c) (Proc.devRef .tc main_v9) = _
  after_results
  exact congrArg row128 (keep9 m ρ c main_arg11 (by decide) (by decide) (by decide) (by decide) (by decide) (by decide) (by decide) (by decide) (by decide) (by decide))

/-- The row the reshape before region 6 leaves: the launch bias `main_arg13` as a row. -/
theorem bias6 (c : Dev nD) : W12 m ρ c (Proc.devRef .tc main_v11) = row64 (m ((c : Thread nD τ).loc main_arg13)) := by
  show StableHlo.after hostOps6 (W11 m ρ c) (Proc.devRef .tc main_v11) = _
  after_results
  exact congrArg row64 (keep11 m ρ c main_arg13 (by decide) (by decide) (by decide) (by decide) (by decide) (by decide) (by decide) (by decide) (by decide) (by decide) (by decide) (by decide))

/-- The six supports as functions of the launch arrays: X · W1, then one layer after another. -/
def S1 (c : Dev nD) : Mat 10000 128 := mm (R := 10000) (K := 128) (C := 128) (m ((c : Thread nD τ).loc main_arg0)) (m ((c : Thread nD τ).loc main_arg2))
def S2 (c : Dev nD) : Mat 10000 128 :=
  next (N := 10000) (C := 128) (C' := 128) (m ((c : Thread nD τ).loc main_arg1)) (S1 m c) (row128 (m ((c : Thread nD τ).loc main_arg3))) (m ((c : Thread nD τ).loc main_arg4))
def S3 (c : Dev nD) : Mat 10000 128 :=
  next (N := 10000) (C := 128) (C' := 128) (m ((c : Thread nD τ).loc main_arg1)) (S2 m c) (row128 (m ((c : Thread nD τ).loc main_arg5))) (m ((c : Thread nD τ).loc main_arg6))
def S4 (c : Dev nD) : Mat 10000 128 :=
  next (N := 10000) (C := 128) (C' := 128) (m ((c : Thread nD τ).loc main_arg1)) (S3 m c) (row128 (m ((c : Thread nD τ).loc main_arg7))) (m ((c : Thread nD τ).loc main_arg8))
def S5 (c : Dev nD) : Mat 10000 128 :=
  next (N := 10000) (C := 128) (C' := 128) (m ((c : Thread nD τ).loc main_arg1)) (S4 m c) (row128 (m ((c : Thread nD τ).loc main_arg9))) (m ((c : Thread nD τ).loc main_arg10))
def S6 (c : Dev nD) : Mat 10000 64 :=
  next (N := 10000) (C := 128) (C' := 64) (m ((c : Thread nD τ).loc main_arg1)) (S5 m c) (row128 (m ((c : Thread nD τ).loc main_arg11))) (m ((c : Thread nD τ).loc main_arg12))

/-- After region 0 the first support holds X · W1. -/
theorem sup1 (c : Dev nD) : W1 m ρ c (Proc.devRef .tc main_v0) = S1 m c :=
  (W1_arr m ρ c 2).trans (Reg0.support_out (V0 m ρ) c)

/-- After region 1 the adjacency copy holds the adjacency matrix, -/
theorem adj3 (c : Dev nD) : W3 m ρ c (Proc.devRef .tc main_v2_1) = (m ((c : Thread nD τ).loc main_arg1)) :=
  (W3_arr m ρ c 5).trans ((Reg1.copy_out (V2 m ρ) c).trans (keep2 m ρ c main_arg1 (by decide) (by decide)))
/-- and still does at boundary 4. -/
theorem adj4 (c : Dev nD) : W4 m ρ c (Proc.devRef .tc main_v2_1) = (m ((c : Thread nD τ).loc main_arg1)) :=
  (host2_keep m ρ c main_v2_1 (by decide)).trans (adj3 m ρ c)
/-- and still does at boundary 5. -/
theorem adj5 (c : Dev nD) : W5 m ρ c (Proc.devRef .tc main_v2_1) = (m ((c : Thread nD τ).loc main_arg1)) :=
  (reg2_keep m ρ c main_v2_1 (by decide)).trans (adj4 m ρ c)
/-- and still does at boundary 6. -/
theorem adj6 (c : Dev nD) : W6 m ρ c (Proc.devRef .tc main_v2_1) = (m ((c : Thread nD τ).loc main_arg1)) :=
  (host3_keep m ρ c main_v2_1 (by decide)).trans (adj5 m ρ c)
/-- and still does at boundary 7. -/
theorem adj7 (c : Dev nD) : W7 m ρ c (Proc.devRef .tc main_v2_1) = (m ((c : Thread nD τ).loc main_arg1)) :=
  (reg3_keep m ρ c main_v2_1 (by decide)).trans (adj6 m ρ c)
/-- and still does at boundary 8. -/
theorem adj8 (c : Dev nD) : W8 m ρ c (Proc.devRef .tc main_v2_1) = (m ((c : Thread nD τ).loc main_arg1)) :=
  (host4_keep m ρ c main_v2_1 (by decide)).trans (adj7 m ρ c)
/-- and still does at boundary 9. -/
theorem adj9 (c : Dev nD) : W9 m ρ c (Proc.devRef .tc main_v2_1) = (m ((c : Thread nD τ).loc main_arg1)) :=
  (reg4_keep m ρ c main_v2_1 (by decide)).trans (adj8 m ρ c)
/-- and still does at boundary 10. -/
theorem adj10 (c : Dev nD) : W10 m ρ c (Proc.devRef .tc main_v2_1) = (m ((c : Thread nD τ).loc main_arg1)) :=
  (host5_keep m ρ c main_v2_1 (by decide)).trans (adj9 m ρ c)
/-- and still does at boundary 11. -/
theorem adj11 (c : Dev nD) : W11 m ρ c (Proc.devRef .tc main_v2_1) = (m ((c : Thread nD τ).loc main_arg1)) :=
  (reg5_keep m ρ c main_v2_1 (by decide)).trans (adj10 m ρ c)
/-- and still does at boundary 12. -/
theorem adj12 (c : Dev nD) : W12 m ρ c (Proc.devRef .tc main_v2_1) = (m ((c : Thread nD τ).loc main_arg1)) :=
  (host6_keep m ρ c main_v2_1 (by decide)).trans (adj11 m ρ c)

/-- After region 1 the second support holds the first layer of the first. -/
theorem sup2 (c : Dev nD) : W3 m ρ c (Proc.devRef .tc main_v2_0) = S2 m c :=
  (W3_arr m ρ c 4).trans ((Reg1.support_out (V2 m ρ) c).trans
    (next_congr (keep2 m ρ c main_arg1 (by decide) (by decide))
      ((host1_keep m ρ c main_v0 (by decide)).trans (sup1 m ρ c))
      (bias1 m ρ c)
      (keep2 m ρ c main_arg4 (by decide) (by decide))))

/-- After region 2 the next support holds layer 2 of the support before it. -/
theorem sup3 (c : Dev nD) : W5 m ρ c (Proc.devRef .tc main_v4) = S3 m c :=
  (W5_arr m ρ c 4).trans ((Reg2.support_out (V4 m ρ) c).trans
    (next_congr (adj4 m ρ c)
      ((host2_keep m ρ c main_v2_0 (by decide)).trans (sup2 m ρ c))
      (bias2 m ρ c)
      (keep4 m ρ c main_arg6 (by decide) (by decide) (by decide) (by decide) (by decide))))

/-- After region 3 the next support holds layer 3 of the support before it. -/
theorem sup4 (c : Dev nD) : W7 m ρ c (Proc.devRef .tc main_v6) = S4 m c :=
  (W7_arr m ρ c 4).trans ((Reg3.support_out (V6 m ρ) c).trans
    (next_congr (adj6 m ρ c)
      ((host3_keep m ρ c main_v4 (by decide)).trans (sup3 m ρ c))
      (bias3 m ρ c)
      (keep6 m ρ c main_arg8 (by decide) (by decide) (by decide) (by decide) (by decide) (by decide) (by decide))))

/-- After region 4 the next support holds layer 4 of the support before it. -/
theorem sup5 (c : Dev nD) : W9 m ρ c (Proc.devRef .tc main_v8) = S5 m c :=
  (W9_arr m ρ c 4).trans ((Reg4.support_out (V8 m ρ) c).trans
    (next_congr (adj8 m ρ c)
      ((host4_keep m ρ c main_v6 (by decide)).trans (sup4 m ρ c))
      (bias4 m ρ c)
      (keep8 m ρ c main_arg10 (by decide) (by decide) (by decide) (by decide) (by decide) (by decide) (by decide) (by decide) (by decide))))

/-- After region 5 the next support holds layer 5 of the support before it. -/
theorem sup6 (c : Dev nD) : W11 m ρ c (Proc.devRef .tc main_v10) = S6 m c :=
  (W11_arr m ρ c 4).trans ((Reg5.support_out (V10 m ρ) c).trans
    (next_congr (adj10 m ρ c)
      ((host5_keep m ρ c main_v8 (by decide)).trans (sup5 m ρ c))
      (bias5 m ρ c)
      (keep10 m ρ c main_arg12 (by decide) (by decide) (by decide) (by decide) (by decide) (by decide) (by decide) (by decide) (by decide) (by decide) (by decide))))

/-- THE RESULT: after the last region the result array holds the network of the fourteen launch arrays. -/
theorem result_val (c : Dev nD) :
    W13 m ρ c (Proc.devRef .tc main_v12)
      = net (N := 10000) (F := 128) (H := 128) (C := 64) (m ((c : Thread nD τ).loc main_arg0)) (m ((c : Thread nD τ).loc main_arg1)) (m ((c : Thread nD τ).loc main_arg2)) (row128 (m ((c : Thread nD τ).loc main_arg3))) (m ((c : Thread nD τ).loc main_arg4)) (row128 (m ((c : Thread nD τ).loc main_arg5)))
          (m ((c : Thread nD τ).loc main_arg6)) (row128 (m ((c : Thread nD τ).loc main_arg7))) (m ((c : Thread nD τ).loc main_arg8)) (row128 (m ((c : Thread nD τ).loc main_arg9))) (m ((c : Thread nD τ).loc main_arg10)) (row128 (m ((c : Thread nD τ).loc main_arg11))) (m ((c : Thread nD τ).loc main_arg12)) (row64 (m ((c : Thread nD τ).loc main_arg13))) :=
  (W13_arr m ρ c 3).trans ((Reg6.result_out (V12 m ρ) c).trans
    (conv_congr (adj12 m ρ c) ((host6_keep m ρ c main_v10 (by decide)).trans (sup6 m ρ c)) (bias6 m ρ c)))

end Cert.KernelIdeal.Fold

end
-- ==== Proof.KernelRun.lean ====
/-
  The idealized kernel's run, with its result named.

  From any memory with zero counters every weakly fair execution of the seven regions and six reshapes terminates
  without a fault; at the end every unscoped buffer holds what the last boundary's contents say. Read at the result
  array that is the network of the fourteen launch arrays, and at each argument it is the launch array itself.
-/
import proofs.«141864_g56126632624284_cont_9to1_m_1356_5_alg».proof.Proof.KernelFold

set_option maxRecDepth 16384

noncomputable section

namespace Cert.KernelIdeal.Fold

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Dense Cert.Gcn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the idealized kernel terminates, nothing faulting, with the result array at the
    network of the launch arrays and every argument array as launched. -/
theorem run_net : θ_run defs (onTc (τ := τ) (main (F := Ideal))) ⟨m, fun _ => 0, ρ⟩ (fun r => ∀ c : Dev nD,
      r.2.mem ((c.tc : Thread nD τ).loc main_v12) = net (N := 10000) (F := 128) (H := 128) (C := 64) (m ((c : Thread nD τ).loc main_arg0)) (m ((c : Thread nD τ).loc main_arg1)) (m ((c : Thread nD τ).loc main_arg2)) (row128 (m ((c : Thread nD τ).loc main_arg3))) (m ((c : Thread nD τ).loc main_arg4)) (row128 (m ((c : Thread nD τ).loc main_arg5)))
          (m ((c : Thread nD τ).loc main_arg6)) (row128 (m ((c : Thread nD τ).loc main_arg7))) (m ((c : Thread nD τ).loc main_arg8)) (row128 (m ((c : Thread nD τ).loc main_arg9))) (m ((c : Thread nD τ).loc main_arg10)) (row128 (m ((c : Thread nD τ).loc main_arg11))) (m ((c : Thread nD τ).loc main_arg12)) (row64 (m ((c : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨(h c _ (mem_uc main_v12 (by decide))).trans (result_val m ρ c),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Fold

end
-- ==== Proof.RefNet.lean ====
/-
  The reference program, stage by stage, is the network of the specification.

  The reference computes each layer as two host products, a bias vector broadcast first to a [1, C] row and then
  down the rows, an addition, and a maximum against a broadcast zero. Read at an entry, a host product is the
  textbook sum, the doubly broadcast bias is the bias at the entry's column, and the broadcast zero is the zero word:
  so each stage is the specification's term of the stage before it, and the last stage is the whole network.
-/
import proofs.«141864_g56126632624284_cont_9to1_m_1356_5_alg».proof.Proof.Gen.ReferenceIdeal.Read
import proofs.«141864_g56126632624284_cont_9to1_m_1356_5_alg».proof.Proof.GcnSpec

noncomputable section

namespace Cert.ReferenceIdeal.RefValue

open Idealize.ShloMosaic Idealize.ShloMosaic.ValueIdx Cert.ReferenceIdeal Cert.ReferenceIdeal.Gen Cert.ReferenceIdeal.Read
open Cert.Dense Cert.Gcn

/-- The first support: the features times the first weights. -/
theorem support0 (x0 : FVec Ideal S10000x128 .f32) (x2 : FVec Ideal S128x128 .f32) :
    val_main_v0 (F := Ideal) x0 x2 = mm x0 x2 :=
  funext fun i => dotGeneral_eq dot_S10000x128_S128x128_S10000x128_1_0_0_1_n_n rfl rfl Read.lhs_main_v0_0 Read.lhs_main_v0_1 Read.rhs_main_v0_0 Read.rhs_main_v0_1 none _ x0 x2 i

/-- Layer 1's hidden activation: the convolution of the support before it, clipped at zero. -/
theorem hidden1 (x0 : FVec Ideal S10000x128 .f32) (x1 : FVec Ideal S10000x10000 .f32) (x2 : FVec Ideal S128x128 .f32) (x3 : FVec Ideal S128 .f32) :
    val_main_v5 (F := Ideal) x0 x1 x2 x3 = act x1 (val_main_v0 (F := Ideal) x0 x2) (row x3) :=
  funext fun i => by
    show max (Host.dotGeneral dot_S10000x10000_S10000x128_S10000x128_1_0_0_1_n_n none x1 (val_main_v0 (F := Ideal) x0 x2) i + val_main_v3 (F := Ideal) x3 i)
        (val_main_call0_v0 (F := Ideal) i)
      = max (mm x1 (val_main_v0 (F := Ideal) x0 x2) i + row x3 (ix2 (0 : Fin 1) (i 1))) z0
    refine congrArg₂ max (congrArg₂ (· + ·) ?_ ?_) ?_
    · exact dotGeneral_eq dot_S10000x10000_S10000x128_S10000x128_1_0_0_1_n_n rfl rfl Read.lhs_main_v1_0 Read.lhs_main_v1_1 Read.rhs_main_v1_0 Read.rhs_main_v1_1 none _ x1 _ i
    · rw [val_main_v3_apply, val_main_v2_apply]
      exact congrArg x3 (funext fun a => Fin.ext (match a with | ⟨0, _⟩ => rfl))
    · rw [val_main_call0_v0_apply]
      rfl

/-- The support after layer 1: its hidden activation times the next weights. -/
theorem support1 (x0 : FVec Ideal S10000x128 .f32) (x1 : FVec Ideal S10000x10000 .f32) (x2 : FVec Ideal S128x128 .f32) (x3 : FVec Ideal S128 .f32) (x4 : FVec Ideal S128x128 .f32) :
    val_main_v6 (F := Ideal) x0 x1 x2 x3 x4 = mm (val_main_v5 (F := Ideal) x0 x1 x2 x3) x4 :=
  funext fun i => dotGeneral_eq dot_S10000x128_S128x128_S10000x128_1_0_0_1_n_n rfl rfl Read.lhs_main_v6_0 Read.lhs_main_v6_1 Read.rhs_main_v6_0 Read.rhs_main_v6_1 none _ _ x4 i

/-- Layer 2's hidden activation: the convolution of the support before it, clipped at zero. -/
theorem hidden2 (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) :
    val_main_v11 (F := Ideal) x0 x1 x2 x3 x4 x5 = act x1 (val_main_v6 (F := Ideal) x0 x1 x2 x3 x4) (row x5) :=
  funext fun i => by
    show max (Host.dotGeneral dot_S10000x10000_S10000x128_S10000x128_1_0_0_1_n_n none x1 (val_main_v6 (F := Ideal) x0 x1 x2 x3 x4) i + val_main_v9 (F := Ideal) x5 i)
        (val_main_call1_v0 (F := Ideal) i)
      = max (mm x1 (val_main_v6 (F := Ideal) x0 x1 x2 x3 x4) i + row x5 (ix2 (0 : Fin 1) (i 1))) z0
    refine congrArg₂ max (congrArg₂ (· + ·) ?_ ?_) ?_
    · exact dotGeneral_eq dot_S10000x10000_S10000x128_S10000x128_1_0_0_1_n_n rfl rfl Read.lhs_main_v7_0 Read.lhs_main_v7_1 Read.rhs_main_v7_0 Read.rhs_main_v7_1 none _ x1 _ i
    · rw [val_main_v9_apply, val_main_v8_apply]
      exact congrArg x5 (funext fun a => Fin.ext (match a with | ⟨0, _⟩ => rfl))
    · rw [val_main_call1_v0_apply]
      rfl

/-- The support after layer 2: its hidden activation times the next weights. -/
theorem support2 (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) :
    val_main_v12 (F := Ideal) x0 x1 x2 x3 x4 x5 x6 = mm (val_main_v11 (F := Ideal) x0 x1 x2 x3 x4 x5) x6 :=
  funext fun i => dotGeneral_eq dot_S10000x128_S128x128_S10000x128_1_0_0_1_n_n rfl rfl Read.lhs_main_v12_0 Read.lhs_main_v12_1 Read.rhs_main_v12_0 Read.rhs_main_v12_1 none _ _ x6 i

/-- Layer 3's hidden activation: the convolution of the support before it, clipped at zero. -/
theorem hidden3 (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) :
    val_main_v17 (F := Ideal) x0 x1 x2 x3 x4 x5 x6 x7 = act x1 (val_main_v12 (F := Ideal) x0 x1 x2 x3 x4 x5 x6) (row x7) :=
  funext fun i => by
    show max (Host.dotGeneral dot_S10000x10000_S10000x128_S10000x128_1_0_0_1_n_n none x1 (val_main_v12 (F := Ideal) x0 x1 x2 x3 x4 x5 x6) i + val_main_v15 (F := Ideal) x7 i)
        (val_main_call2_v0 (F := Ideal) i)
      = max (mm x1 (val_main_v12 (F := Ideal) x0 x1 x2 x3 x4 x5 x6) i + row x7 (ix2 (0 : Fin 1) (i 1))) z0
    refine congrArg₂ max (congrArg₂ (· + ·) ?_ ?_) ?_
    · exact dotGeneral_eq dot_S10000x10000_S10000x128_S10000x128_1_0_0_1_n_n rfl rfl Read.lhs_main_v13_0 Read.lhs_main_v13_1 Read.rhs_main_v13_0 Read.rhs_main_v13_1 none _ x1 _ i
    · rw [val_main_v15_apply, val_main_v14_apply]
      exact congrArg x7 (funext fun a => Fin.ext (match a with | ⟨0, _⟩ => rfl))
    · rw [val_main_call2_v0_apply]
      rfl

/-- The support after layer 3: its hidden activation times the next weights. -/
theorem support3 (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) :
    val_main_v18 (F := Ideal) x0 x1 x2 x3 x4 x5 x6 x7 x8 = mm (val_main_v17 (F := Ideal) x0 x1 x2 x3 x4 x5 x6 x7) x8 :=
  funext fun i => dotGeneral_eq dot_S10000x128_S128x128_S10000x128_1_0_0_1_n_n rfl rfl Read.lhs_main_v18_0 Read.lhs_main_v18_1 Read.rhs_main_v18_0 Read.rhs_main_v18_1 none _ _ x8 i

/-- Layer 4's hidden activation: the convolution of the support before it, clipped at zero. -/
theorem hidden4 (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) :
    val_main_v23 (F := Ideal) x0 x1 x2 x3 x4 x5 x6 x7 x8 x9 = act x1 (val_main_v18 (F := Ideal) x0 x1 x2 x3 x4 x5 x6 x7 x8) (row x9) :=
  funext fun i => by
    show max (Host.dotGeneral dot_S10000x10000_S10000x128_S10000x128_1_0_0_1_n_n none x1 (val_main_v18 (F := Ideal) x0 x1 x2 x3 x4 x5 x6 x7 x8) i + val_main_v21 (F := Ideal) x9 i)
        (val_main_call3_v0 (F := Ideal) i)
      = max (mm x1 (val_main_v18 (F := Ideal) x0 x1 x2 x3 x4 x5 x6 x7 x8) i + row x9 (ix2 (0 : Fin 1) (i 1))) z0
    refine congrArg₂ max (congrArg₂ (· + ·) ?_ ?_) ?_
    · exact dotGeneral_eq dot_S10000x10000_S10000x128_S10000x128_1_0_0_1_n_n rfl rfl Read.lhs_main_v19_0 Read.lhs_main_v19_1 Read.rhs_main_v19_0 Read.rhs_main_v19_1 none _ x1 _ i
    · rw [val_main_v21_apply, val_main_v20_apply]
      exact congrArg x9 (funext fun a => Fin.ext (match a with | ⟨0, _⟩ => rfl))
    · rw [val_main_call3_v0_apply]
      rfl

/-- The support after layer 4: its hidden activation times the next weights. -/
theorem support4 (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) :
    val_main_v24 (F := Ideal) x0 x1 x2 x3 x4 x5 x6 x7 x8 x9 x10 = mm (val_main_v23 (F := Ideal) x0 x1 x2 x3 x4 x5 x6 x7 x8 x9) x10 :=
  funext fun i => dotGeneral_eq dot_S10000x128_S128x128_S10000x128_1_0_0_1_n_n rfl rfl Read.lhs_main_v24_0 Read.lhs_main_v24_1 Read.rhs_main_v24_0 Read.rhs_main_v24_1 none _ _ x10 i

/-- Layer 5's hidden activation: the convolution of the support before it, clipped at zero. -/
theorem hidden5 (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) :
    val_main_v29 (F := Ideal) x0 x1 x2 x3 x4 x5 x6 x7 x8 x9 x10 x11 = act x1 (val_main_v24 (F := Ideal) x0 x1 x2 x3 x4 x5 x6 x7 x8 x9 x10) (row x11) :=
  funext fun i => by
    show max (Host.dotGeneral dot_S10000x10000_S10000x128_S10000x128_1_0_0_1_n_n none x1 (val_main_v24 (F := Ideal) x0 x1 x2 x3 x4 x5 x6 x7 x8 x9 x10) i + val_main_v27 (F := Ideal) x11 i)
        (val_main_call4_v0 (F := Ideal) i)
      = max (mm x1 (val_main_v24 (F := Ideal) x0 x1 x2 x3 x4 x5 x6 x7 x8 x9 x10) i + row x11 (ix2 (0 : Fin 1) (i 1))) z0
    refine congrArg₂ max (congrArg₂ (· + ·) ?_ ?_) ?_
    · exact dotGeneral_eq dot_S10000x10000_S10000x128_S10000x128_1_0_0_1_n_n rfl rfl Read.lhs_main_v25_0 Read.lhs_main_v25_1 Read.rhs_main_v25_0 Read.rhs_main_v25_1 none _ x1 _ i
    · rw [val_main_v27_apply, val_main_v26_apply]
      exact congrArg x11 (funext fun a => Fin.ext (match a with | ⟨0, _⟩ => rfl))
    · rw [val_main_call4_v0_apply]
      rfl

/-- The support after layer 5: its hidden activation times the next weights. -/
theorem support5 (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S128x64 .f32) :
    val_main_v30 (F := Ideal) x0 x1 x2 x3 x4 x5 x6 x7 x8 x9 x10 x11 x12 = mm (val_main_v29 (F := Ideal) x0 x1 x2 x3 x4 x5 x6 x7 x8 x9 x10 x11) x12 :=
  funext fun i => dotGeneral_eq dot_S10000x128_S128x64_S10000x64_1_0_0_1_n_n rfl rfl Read.lhs_main_v30_0 Read.lhs_main_v30_1 Read.rhs_main_v30_0 Read.rhs_main_v30_1 none _ _ x12 i

/-- The result: the last convolution, not clipped. -/
theorem result (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S128x64 .f32) (x13 : FVec Ideal S64 .f32) :
    val_main_v34 (F := Ideal) x0 x1 x2 x3 x4 x5 x6 x7 x8 x9 x10 x11 x12 x13 = lin x1 (val_main_v30 (F := Ideal) x0 x1 x2 x3 x4 x5 x6 x7 x8 x9 x10 x11 x12) (row x13) :=
  funext fun i => by
    show Host.dotGeneral dot_S10000x10000_S10000x64_S10000x64_1_0_0_1_n_n none x1 (val_main_v30 (F := Ideal) x0 x1 x2 x3 x4 x5 x6 x7 x8 x9 x10 x11 x12) i + val_main_v33 (F := Ideal) x13 i
      = mm x1 (val_main_v30 (F := Ideal) x0 x1 x2 x3 x4 x5 x6 x7 x8 x9 x10 x11 x12) i + row x13 (ix2 (0 : Fin 1) (i 1))
    refine congrArg₂ (· + ·) ?_ ?_
    · exact dotGeneral_eq dot_S10000x10000_S10000x64_S10000x64_1_0_0_1_n_n rfl rfl Read.lhs_main_v31_0 Read.lhs_main_v31_1 Read.rhs_main_v31_0 Read.rhs_main_v31_1 none _ x1 _ i
    · rw [val_main_v33_apply, val_main_v32_apply]
      exact congrArg x13 (funext fun a => Fin.ext (match a with | ⟨0, _⟩ => rfl))

/-- The reference's result is the network of its fourteen arguments, the biases as rows. -/
theorem ref_is_net (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S128x64 .f32) (x13 : FVec Ideal S64 .f32) :
    val_main_v34 (F := Ideal) x0 x1 x2 x3 x4 x5 x6 x7 x8 x9 x10 x11 x12 x13
      = net x0 x1 x2 (row x3) x4 (row x5) x6 (row x7) x8 (row x9) x10 (row x11) x12 (row x13) := by
  rw [result, support5, hidden5, support4, hidden4, support3, hidden3, support2, hidden2, support1, hidden1, support0]
  rfl

end Cert.ReferenceIdeal.RefValue

end
-- ==== Proof.Bridge.lean ====
/-
  The two programs compute one function.

  The idealized kernel ends with its result at the network of the launch arrays, the biases laid out as rows by a
  reshape; the idealized reference ends with its result at the same network, the biases read as rows through two
  broadcasts. A vector reshaped to [1, C] and the vector read at the entry's column are the same row, since a [1, C]
  index's position in row-major order is its column. So from memories that agree on the fourteen arguments the two
  results are equal entry by entry.
-/
import proofs.«141864_g56126632624284_cont_9to1_m_1356_5_alg».proof.Defs
import proofs.«141864_g56126632624284_cont_9to1_m_1356_5_alg».proof.Proof.Gen.Pre_finite_inputs
import proofs.«141864_g56126632624284_cont_9to1_m_1356_5_alg».proof.Proof.KernelRun
import proofs.«141864_g56126632624284_cont_9to1_m_1356_5_alg».proof.Proof.RefNet

noncomputable section

namespace Cert.Proof.Bridge

open Idealize.ShloMosaic Idealize.ShloMosaic.TcCoe Idealize.ShloMosaic.ValueIdx Idealize.SL.Sem
open Cert.Dense Cert.Gcn

/-- A length-128 vector reshaped to [1, 128] is the row that reads it at the entry's column. -/
theorem row128_eq (b : Cert.KernelIdeal.S128.Idx → EReal) : Cert.KernelIdeal.Fold.row128 b = row b := by
  funext i
  unfold Cert.KernelIdeal.Fold.row128 row
  refine shapeCast_apply b _ i (ix1 (i 1)) ?_
  have h1 : (Cert.KernelIdeal.S128.rowMajor (ix1 (i 1))).val = (i 1).val :=
    Shape.rowMajor_val_one (d := ![128]) (ix1 (i 1))
  have h2 : (Cert.KernelIdeal.S1x128.rowMajor i).val = (i 0).val * 128 + (i 1).val :=
    Shape.rowMajor_val_two (d := ![1, 128]) i
  have h0 : (i 0).val < 1 := (i 0).isLt
  rw [h1, h2]
  omega

/-- A length-64 vector reshaped to [1, 64] is the row that reads it at the entry's column. -/
theorem row64_eq (b : Cert.KernelIdeal.S64.Idx → EReal) : Cert.KernelIdeal.Fold.row64 b = row b := by
  funext i
  unfold Cert.KernelIdeal.Fold.row64 row
  refine shapeCast_apply b _ i (ix1 (i 1)) ?_
  have h1 : (Cert.KernelIdeal.S64.rowMajor (ix1 (i 1))).val = (i 1).val :=
    Shape.rowMajor_val_one (d := ![64]) (ix1 (i 1))
  have h2 : (Cert.KernelIdeal.S1x64.rowMajor i).val = (i 0).val * 64 + (i 1).val :=
    Shape.rowMajor_val_two (d := ![1, 64]) i
  have h0 : (i 0).val < 1 := (i 0).isLt
  rw [h1, h2]
  omega

/-- Both idealized programs run, and from memories agreeing on the arguments they end with equal results. -/
theorem algebraic : Cert.algebraic_KernelIdeal_ReferenceIdeal := by
  intro m ρ m' ρ' _ hagree
  refine ⟨_, Cert.KernelIdeal.Fold.run_net m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v34_eq, Cert.ReferenceIdeal.RefValue.ref_is_net,
    a0, a1, a2, a3, a4, a5, a6, a7, a8, a9, a10, a11, a12, a13]
  simp only [row128_eq, row64_eq]

end Cert.Proof.Bridge

end
-- ==== Proof.lean ====
/-
  A six-layer graph convolution network over a dense [10000, 10000] adjacency matrix A: each layer forms
  A · S + b from a support S, clips it below at zero and multiplies by the next layer's weights, and the last layer's
  convolution is the result. The kernel computes this in seven launches — the first support, five fused layers that
  work on blocks of 400 rows of A, and the last convolution on the same blocks — keeping a copy of A in a narrower
  float format; the reference computes it with whole-array host products.

  On the extended reals a change of float format is the identity and a product into a zero accumulator is the
  textbook sum, so each launch's row block is the layer's function of the same rows of A, the 25 row blocks tile each
  array, and the kernel's result is the same composition of sums, additions and maxima as the reference's, entry by
  entry. No law that needs finite entries is used, so the precondition is never opened.

  The three frames are the generated frame proofs (the reference's is its generated run with the result dropped);
  the idealization rewrote no operation, so that conjunct is trivial.
-/
import proofs.«141864_g56126632624284_cont_9to1_m_1356_5_alg».proof.Defs
import proofs.«141864_g56126632624284_cont_9to1_m_1356_5_alg».proof.Proof.Gen.Kernel
import proofs.«141864_g56126632624284_cont_9to1_m_1356_5_alg».proof.Proof.Gen.Kernel.Skeleton
import proofs.«141864_g56126632624284_cont_9to1_m_1356_5_alg».proof.Proof.Gen.Kernel.Launch
import proofs.«141864_g56126632624284_cont_9to1_m_1356_5_alg».proof.Proof.Gen.Kernel.Points
import proofs.«141864_g56126632624284_cont_9to1_m_1356_5_alg».proof.Proof.Gen.Kernel.Frame
import proofs.«141864_g56126632624284_cont_9to1_m_1356_5_alg».proof.Proof.Gen.KernelIdeal
import proofs.«141864_g56126632624284_cont_9to1_m_1356_5_alg».proof.Proof.Gen.KernelIdeal.Skeleton
import proofs.«141864_g56126632624284_cont_9to1_m_1356_5_alg».proof.Proof.Gen.KernelIdeal.Launch
import proofs.«141864_g56126632624284_cont_9to1_m_1356_5_alg».proof.Proof.Gen.KernelIdeal.Points
import proofs.«141864_g56126632624284_cont_9to1_m_1356_5_alg».proof.Proof.Gen.KernelIdeal.Frame
import proofs.«141864_g56126632624284_cont_9to1_m_1356_5_alg».proof.Proof.Gen.ReferenceIdeal
import proofs.«141864_g56126632624284_cont_9to1_m_1356_5_alg».proof.Proof.Gen.ReferenceIdeal.Run
import proofs.«141864_g56126632624284_cont_9to1_m_1356_5_alg».proof.Proof.Gen.ReferenceIdeal.Read
import proofs.«141864_g56126632624284_cont_9to1_m_1356_5_alg».proof.Proof.Gen.Pre_finite_inputs
import proofs.«141864_g56126632624284_cont_9to1_m_1356_5_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, Bridge.algebraic⟩

end Cert.Proof

end
